-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000x2 : Shape := ⟨2, ![1000000, 2]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S1000000x128 .f32) (main_arg1 : IVec S1000000x2 32) (main_arg2 : FVec F S128x128 .f32) (main_arg3 : FVec F S128 .f32) (main_arg4 : FVec F S128x16 .f32) (main_arg5 : FVec F S16 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x16 .f32 := Host.absf main_arg4
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg5 main_v13 main_v16
-- ==== Kernel.lean ====
abbrev S1000000x128 : Shape := ⟨2, ![1000000, 128]⟩
abbrev S1000000x2 : Shape := ⟨2, ![1000000, 2]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x128 : Shape := ⟨2, ![1, 128]⟩
abbrev S8000x128 : Shape := ⟨2, ![8000, 128]⟩
abbrev S1000000x1 : Shape := ⟨2, ![1000000, 1]⟩
abbrev S1000000 : Shape := ⟨1, ![1000000]⟩
abbrev S_ : Shape := ⟨0, ![]⟩
abbrev S1x16 : Shape := ⟨2, ![1, 16]⟩
abbrev S1000000x16 : Shape := ⟨2, ![1000000, 16]⟩
abbrev S8000x16 : Shape := ⟨2, ![8000, 16]⟩

abbrev nBuf : Space → Nat
  | .hbm => 61
  | .vmem => 12
  | .smem => 0
  | _ => 0

abbrev bufTy : (tb : Table) → Fin (tcTables nBuf tb) → BufTy
  | .hbm, ⟨0, _⟩ => ⟨S1000000x128, .f32⟩
  | .hbm, ⟨1, _⟩ => ⟨S1000000x2, .i32⟩
  | .hbm, ⟨2, _⟩ => ⟨S128x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S1x128, .f32⟩
  | .hbm, ⟨7, _⟩ => ⟨S1000000x128, .bf16⟩
  | .hbm, ⟨8, _⟩ => ⟨S1000000x1, .i32⟩
  | .hbm, ⟨9, _⟩ => ⟨S1000000, .i32⟩
  | .hbm, ⟨10, _⟩ => ⟨S1000000, .i32⟩
  | .hbm, ⟨11, _⟩ => ⟨S_, .i32⟩
  | .hbm, ⟨12, _⟩ => ⟨S1000000, .i32⟩
  | .hbm, ⟨13, _⟩ => ⟨S_, .i32⟩
  | .hbm, ⟨14, _⟩ => ⟨S1000000, .i32⟩
  | .hbm, ⟨15, _⟩ => ⟨S1000000, .i1⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S1000000, .i32⟩
  | .hbm, ⟨20, _⟩ => ⟨S1000000x1, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S_, .i32⟩
  | .hbm, ⟨26, _⟩ => ⟨S1000000, .i32⟩
  | .hbm, ⟨27, _⟩ => ⟨S_, .i32⟩
  | .hbm, ⟨28, _⟩ => ⟨S1000000, .i32⟩
  | .hbm, ⟨29, _⟩ => ⟨S1000000, .i1⟩
  | .hbm, ⟨30, _⟩ => ⟨S_, .i32⟩
  | .hbm, ⟨31, _⟩ => ⟨S1000000, .i32⟩
  | .hbm, ⟨32, _⟩ => ⟨S1000000, .i32⟩
  | .hbm, ⟨33, _⟩ => ⟨S1000000, .i32⟩
  | .hbm, ⟨34, _⟩ => ⟨S1000000x1, .i32⟩
  | .hbm, ⟨35, _⟩ => ⟨S1000000, .i32⟩
  | .hbm, ⟨36, _⟩ => ⟨S_, .i32⟩
  | .hbm, ⟨37, _⟩ => ⟨S1000000, .i32⟩
  | .hbm, ⟨38, _⟩ => ⟨S1000000, .i1⟩
  | .hbm, ⟨39, _⟩ => ⟨S_, .i32⟩
  | .hbm, ⟨40, _⟩ => ⟨S1000000, .i32⟩
  | .hbm, ⟨41, _⟩ => ⟨S1000000, .i32⟩
  | .hbm, ⟨42, _⟩ => ⟨S1000000, .i32⟩
  | .hbm, ⟨43, _⟩ => ⟨S1000000x1, .i32⟩
  | .hbm, ⟨44, _⟩ => ⟨S1000000, .i32⟩
  | .hbm, ⟨45, _⟩ => ⟨S_, .i32⟩
  | .hbm, ⟨46, _⟩ => ⟨S1000000, .i32⟩
  | .hbm, ⟨47, _⟩ => ⟨S1000000, .i1⟩
  | .hbm, ⟨48, _⟩ => ⟨S_, .i32⟩
  | .hbm, ⟨49, _⟩ => ⟨S1000000, .i32⟩
  | .hbm, ⟨50, _⟩ => ⟨S1000000, .i32⟩
  | .hbm, ⟨51, _⟩ => ⟨S1000000, .i32⟩
  | .hbm, ⟨52, _⟩ => ⟨S1000000x1, .i32⟩
  | .hbm, ⟨53, _⟩ => ⟨S1000000, .i32⟩
  | .hbm, ⟨54, _⟩ => ⟨S1000000x128, .f32⟩
  | .hbm, ⟨55, _⟩ => ⟨S_, .f32⟩
  | .hbm, ⟨56, _⟩ => ⟨S1000000x128, .f32⟩
  | .hbm, ⟨57, _⟩ => ⟨S1000000x1, .i32⟩
  | .hbm, ⟨58, _⟩ => ⟨S1000000x128, .f32⟩
  | .hbm, ⟨59, _⟩ => ⟨S1x16, .f32⟩
  | .hbm, ⟨60, _⟩ => ⟨S1000000x16, .f32⟩
  | .local _ .vmem, ⟨0, _⟩ => ⟨S8000x128, .f32⟩
  | .local _ .vmem, ⟨1, _⟩ => ⟨S8000x128, .f32⟩
  | .local _ .vmem, ⟨2, _⟩ => ⟨S128x128, .f32⟩
  | .local _ .vmem, ⟨3, _⟩ => ⟨S1x128, .f32⟩
  | .local _ .vmem, ⟨4, _⟩ => ⟨S8000x128, .bf16⟩
  | .local _ .vmem, ⟨5, _⟩ => ⟨S8000x128, .bf16⟩
  | .local _ .vmem, ⟨6, _⟩ => ⟨S8000x128, .f32⟩
  | .local _ .vmem, ⟨7, _⟩ => ⟨S8000x128, .f32⟩
  | .local _ .vmem, ⟨8, _⟩ => ⟨S128x16, .f32⟩
  | .local _ .vmem, ⟨9, _⟩ => ⟨S1x16, .f32⟩
  | .local _ .vmem, ⟨10, _⟩ => ⟨S8000x16, .f32⟩
  | .local _ .vmem, ⟨11, _⟩ => ⟨S8000x16, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_v1_0 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_7 : Ref sig .tc := ⟨.hbm, 45, rfl⟩
abbrev main_v29 : Ref sig .tc := ⟨.hbm, 46, rfl⟩
abbrev main_v30 : Ref sig .tc := ⟨.hbm, 47, rfl⟩
abbrev main_c_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  packedbf16_S8000x128_S8000x128_0_0 : (Rect.unit (s := S8000x128) ![0, 0] S8000x128.size inb_S8000x128_S8000x128_0_0).PackedRows (EltTy.packing .bf16)
  slices_S1000000x2_S1000000x1_0_0 : S1000000x2.Slices ![0, 0] S1000000x1
  shapeCasts_S1000000x1_S1000000 : S1000000x1.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x128 : S_.BroadcastsInDim S1000000x128 (![] : Fin 0 → Fin S1000000x128.rank)
  shapeCasts_S16_S1x16 : S16.ShapeCasts S1x16
  shapeCasts_S8000x128_S8000x128 : S8000x128.ShapeCasts S8000x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8000x16 : S1x16.Broadcasts S8000x16
  inb_S8000x16_S8000x16_0_0 : ∀ a, (![0, 0] : Fin 2 → Nat) a + S8000x16.size a ≤ S8000x16.size a
  h_S8000x16 : 0 < S8000x16.numel
  dot_S8000x128_S128x128_S8000x128_1_0_0_1_n_n_wf : DotDims.WF S8000x128 S128x128 S8000x128 [1] [0] [0] [1] [] []
  scatter_S1000000_S1000000x1_S1000000_n_0_0_1_wf : ScatterDims.WF S1000000 S1000000x1 S1000000 [] [0] [0] 1
  gather_S1000000_S1000000x1_S1000000_n_0_n_n_0_1_1_wf : GatherDims.WF S1000000 S1000000x1 S1000000 [] [0] [] [0] [] 1 ![1]
  scatter_S1000000x128_S1000000x1_S1000000x128_1_0_0_1_wf : ScatterDims.WF S1000000x128 S1000000x1 S1000000x128 [1] [0] [0] 1
  dot_S8000x128_S128x16_S8000x16_1_0_0_1_n_n_wf : DotDims.WF S8000x128 S128x16 S8000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1000000x128.size a
  hwx0_0 : ∀ i : grid0.Coords, EltTy.bits .f32 = 32 ∨ (Rect.block (s := S1000000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S1000000x128.size a
  hwx0_3 : ∀ i : grid0.Coords, EltTy.bits .bf16 = 32 ∨ (Rect.block (s := S1000000x128) S8000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S1000000x128.size a
  hwx1_0 : ∀ i : grid1.Coords, EltTy.bits .f32 = 32 ∨ (Rect.block (s := S1000000x128) S8000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x16.size a ≤ S128x16.size a
  hwx1_1 : ∀ i : grid1.Coords, EltTy.bits .f32 = 32 ∨ (Rect.block (s := S128x16) S128x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x16.size a ≤ S1000000x16.size a
  hwx1_3 : ∀ i : grid1.Coords, EltTy.bits .f32 = 32 ∨ (Rect.block (s := S1000000x16) S8000x16.size (cc1_transform_3 i) (hinb1_3 i)).WholeWords (EltTy.packing .f32)

variable [Facts₀]

def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S1000000_S1000000x1_S1000000_n_0_0_1 : ScatterDims S1000000 S1000000x1 S1000000 where
  updateWindowDims := []
  insertedWindowDims := [0]
  scatterDimsToOperandDims := [0]
  indexVectorDim := 1
  wf := scatter_S1000000_S1000000x1_S1000000_n_0_0_1_wf
def comparator_i32_i32_d0 : BitVec 32 × BitVec 32 → BitVec 32 × BitVec 32 → BitVec 1 :=
  fun l r =>
    let v2 := IntOp.cmpi .slt l.1 r.1
    v2
def gather_S1000000_S1000000x1_S1000000_n_0_n_n_0_1_1 : GatherDims S1000000 S1000000x1 S1000000 where
  offsetDims := []
  collapsedSliceDims := [0]
  operandBatchingDims := []
  startIndicesBatchingDims := []
  startIndexMap := [0]
  indexVectorDim := 1
  sliceSizes := ![1]
  wf := gather_S1000000_S1000000x1_S1000000_n_0_n_n_0_1_1_wf
def scatter_S1000000x128_S1000000x1_S1000000x128_1_0_0_1 : ScatterDims S1000000x128 S1000000x1 S1000000x128 where
  updateWindowDims := [1]
  insertedWindowDims := [0]
  scatterDimsToOperandDims := [0]
  indexVectorDim := 1
  wf := scatter_S1000000x128_S1000000x1_S1000000x128_1_0_0_1_wf
def dot_S8000x128_S128x16_S8000x16_1_0_0_1_n_n : DotDims S8000x128 S128x16 S8000x16 where
  lhsContracting := [1]
  rhsContracting := [0]
  lhsNonContracting := [0]
  rhsNonContracting := [1]
  lhsBatch := []
  rhsBatch := []
  wf := dot_S8000x128_S128x16_S8000x16_1_0_0_1_n_n_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v39) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S8000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1000000x128 : Shape := ⟨2, ![1000000, 128]⟩
abbrev S1000000x2 : Shape := ⟨2, ![1000000, 2]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x128 : Shape := ⟨2, ![1, 128]⟩
abbrev S_ : Shape := ⟨0, ![]⟩
abbrev S1000000x1 : Shape := ⟨2, ![1000000, 1]⟩
abbrev S1000000 : Shape := ⟨1, ![1000000]⟩
abbrev S1000000x16 : Shape := ⟨2, ![1000000, 16]⟩
abbrev S1x16 : Shape := ⟨2, ![1, 16]⟩

abbrev nBuf : Space → Nat
  | .hbm => 70
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000x2, .i32⟩
  | .hbm, ⟨2, _⟩ => ⟨S128x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S1000000x128, .f32⟩
  | .hbm, ⟨7, _⟩ => ⟨S1x128, .f32⟩
  | .hbm, ⟨8, _⟩ => ⟨S1000000x128, .f32⟩
  | .hbm, ⟨9, _⟩ => ⟨S1000000x128, .f32⟩
  | .hbm, ⟨10, _⟩ => ⟨S_, .f32⟩
  | .hbm, ⟨11, _⟩ => ⟨S1000000x128, .f32⟩
  | .hbm, ⟨12, _⟩ => ⟨S1000000x128, .f32⟩
  | .hbm, ⟨13, _⟩ => ⟨S1000000x1, .i32⟩
  | .hbm, ⟨14, _⟩ => ⟨S1000000, .i32⟩
  | .hbm, ⟨15, _⟩ => ⟨S1000000, .i32⟩
  | .hbm, ⟨16, _⟩ => ⟨S_, .i32⟩
  | .hbm, ⟨17, _⟩ => ⟨S1000000, .i32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000, .i32⟩
  | .hbm, ⟨30, _⟩ => ⟨S_, .i32⟩
  | .hbm, ⟨31, _⟩ => ⟨S1000000, .i32⟩
  | .hbm, ⟨32, _⟩ => ⟨S_, .i32⟩
  | .hbm, ⟨33, _⟩ => ⟨S1000000, .i32⟩
  | .hbm, ⟨34, _⟩ => ⟨S1000000, .i1⟩
  | .hbm, ⟨35, _⟩ => ⟨S_, .i32⟩
  | .hbm, ⟨36, _⟩ => ⟨S1000000, .i32⟩
  | .hbm, ⟨37, _⟩ => ⟨S1000000, .i32⟩
  | .hbm, ⟨38, _⟩ => ⟨S1000000, .i32⟩
  | .hbm, ⟨39, _⟩ => ⟨S1000000x1, .i32⟩
  | .hbm, ⟨40, _⟩ => ⟨S1000000, .i32⟩
  | .hbm, ⟨41, _⟩ => ⟨S_, .i32⟩
  | .hbm, ⟨42, _⟩ => ⟨S1000000, .i32⟩
  | .hbm, ⟨43, _⟩ => ⟨S1000000, .i1⟩
  | .hbm, ⟨44, _⟩ => ⟨S_, .i32⟩
  | .hbm, ⟨45, _⟩ => ⟨S1000000, .i32⟩
  | .hbm, ⟨46, _⟩ => ⟨S1000000, .i32⟩
  | .hbm, ⟨47, _⟩ => ⟨S1000000, .i32⟩
  | .hbm, ⟨48, _⟩ => ⟨S1000000x1, .i32⟩
  | .hbm, ⟨49, _⟩ => ⟨S1000000, .i32⟩
  | .hbm, ⟨50, _⟩ => ⟨S_, .i32⟩
  | .hbm, ⟨51, _⟩ => ⟨S1000000, .i32⟩
  | .hbm, ⟨52, _⟩ => ⟨S1000000, .i1⟩
  | .hbm, ⟨53, _⟩ => ⟨S_, .i32⟩
  | .hbm, ⟨54, _⟩ => ⟨S1000000, .i32⟩
  | .hbm, ⟨55, _⟩ => ⟨S1000000, .i32⟩
  | .hbm, ⟨56, _⟩ => ⟨S1000000, .i32⟩
  | .hbm, ⟨57, _⟩ => ⟨S1000000x1, .i32⟩
  | .hbm, ⟨58, _⟩ => ⟨S1000000, .i32⟩
  | .hbm, ⟨59, _⟩ => ⟨S_, .f32⟩
  | .hbm, ⟨60, _⟩ => ⟨S1000000x128, .f32⟩
  | .hbm, ⟨61, _⟩ => ⟨S1000000x1, .i32⟩
  | .hbm, ⟨62, _⟩ => ⟨S1000000x128, .f32⟩
  | .hbm, ⟨63, _⟩ => ⟨S_, .f32⟩
  | .hbm, ⟨64, _⟩ => ⟨S1000000x128, .f32⟩
  | .hbm, ⟨65, _⟩ => ⟨S1000000x128, .f32⟩
  | .hbm, ⟨66, _⟩ => ⟨S1000000x16, .f32⟩
  | .hbm, ⟨67, _⟩ => ⟨S1x16, .f32⟩
  | .hbm, ⟨68, _⟩ => ⟨S1000000x16, .f32⟩
  | .hbm, ⟨69, _⟩ => ⟨S1000000x16, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call1_v0 : Ref sig .tc := ⟨.hbm, 27, rfl⟩
abbrev main_call1_v1_0 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_call2_cst : Ref sig .tc := ⟨.hbm, 63, rfl⟩
abbrev main_call2_v0 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  slices_S1000000x2_S1000000x1_0_0 : S1000000x2.Slices ![0, 0] S1000000x1
  shapeCasts_S1000000x1_S1000000 : S1000000x1.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S16_S1x16_1 : S16.BroadcastsInDim S1x16 (![1] : Fin 1 → Fin S1x16.rank)
  bcast_S1x16_S1000000x16_0_1 : S1x16.BroadcastsInDim S1000000x16 (![0, 1] : Fin 2 → Fin S1000000x16.rank)
  dot_S1000000x128_S128x128_S1000000x128_1_0_0_1_n_n_wf : DotDims.WF S1000000x128 S128x128 S1000000x128 [1] [0] [0] [1] [] []
  scatter_S1000000_S1000000x1_S1000000_n_0_0_1_wf : ScatterDims.WF S1000000 S1000000x1 S1000000 [] [0] [0] 1
  gather_S1000000_S1000000x1_S1000000_n_0_n_n_0_1_1_wf : GatherDims.WF S1000000 S1000000x1 S1000000 [] [0] [] [0] [] 1 ![1]
  scatter_S1000000x128_S1000000x1_S1000000x128_1_0_0_1_wf : ScatterDims.WF S1000000x128 S1000000x1 S1000000x128 [1] [0] [0] 1
  dot_S1000000x128_S128x16_S1000000x16_1_0_0_1_n_n_wf : DotDims.WF S1000000x128 S128x16 S1000000x16 [1] [0] [0] [1] [] []

variable [Facts₀]

def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def scatter_S1000000_S1000000x1_S1000000_n_0_0_1 : ScatterDims S1000000 S1000000x1 S1000000 where
  updateWindowDims := []
  insertedWindowDims := [0]
  scatterDimsToOperandDims := [0]
  indexVectorDim := 1
  wf := scatter_S1000000_S1000000x1_S1000000_n_0_0_1_wf
def comparator_i32_i32_d0 : BitVec 32 × BitVec 32 → BitVec 32 × BitVec 32 → BitVec 1 :=
  fun l r =>
    let v2 := IntOp.cmpi .slt l.1 r.1
    v2
def gather_S1000000_S1000000x1_S1000000_n_0_n_n_0_1_1 : GatherDims S1000000 S1000000x1 S1000000 where
  offsetDims := []
  collapsedSliceDims := [0]
  operandBatchingDims := []
  startIndicesBatchingDims := []
  startIndexMap := [0]
  indexVectorDim := 1
  sliceSizes := ![1]
  wf := gather_S1000000_S1000000x1_S1000000_n_0_n_n_0_1_1_wf
def scatter_S1000000x128_S1000000x1_S1000000x128_1_0_0_1 : ScatterDims S1000000x128 S1000000x1 S1000000x128 where
  updateWindowDims := [1]
  insertedWindowDims := [0]
  scatterDimsToOperandDims := [0]
  indexVectorDim := 1
  wf := scatter_S1000000x128_S1000000x1_S1000000x128_1_0_0_1_wf
def dot_S1000000x128_S128x16_S1000000x16_1_0_0_1_n_n : DotDims S1000000x128 S128x16 S1000000x16 where
  lhsContracting := [1]
  rhsContracting := [0]
  lhsNonContracting := [0]
  rhsNonContracting := [1]
  lhsBatch := []
  rhsBatch := []
  wf := dot_S1000000x128_S128x16_S1000000x16_1_0_0_1_n_n_wf

class Facts : Prop extends Facts₀ where

variable [Facts]
-- ==== Proof.KernelRun.lean ====
/-
  The idealized kernel's run with its result named: every weakly fair execution of @main ends with the result buffer at the
  contents the last segment boundary gives it (the second region's output array after its write-backs), and with the argument
  arrays as launched. The launch is the one of the program's frame, over the same segments, read at one more buffer.
-/
import proofs.«175724_j9234179686641_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v41) = W6 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v41 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.RunV

end
-- ==== Proof.Spec.lean ====
/-
  The network's two dense layers, one output entry at a time, over the extended reals.

  The first layer sends a row `x` of the node features to `max (x · w + b) 0` for each weight column `w` and bias entry `b`;
  the second sends a row `a` of the aggregated features to `(max a 0) · w + b`. A row block of a layer's input and the whole
  input are read through the same two functions: an output entry depends on ONE row of the left operand only.
-/
import Idealize.ShloMosaic.PureOps.Ideal

noncomputable section

namespace Cert.Spec

open scoped BigOperators

/-- An entry of the first layer: the row's product with a weight column, plus the bias entry, cut off below at zero. -/
def dense1At (x w : Fin 128 → EReal) (b : EReal) : EReal := max ((∑ k : Fin 128, x k * w k) + b) 0

/-- An entry of the second layer: the row, cut off below at zero, times a weight column, plus the bias entry. -/
def dense2At (a w : Fin 128 → EReal) (b : EReal) : EReal := (∑ k : Fin 128, max (a k) 0 * w k) + b

end Cert.Spec

end
-- ==== Proof.Region0.lean ====
/-
  The first region's output array. Each grid point `t` holds rows `8000 t … 8000 t + 7999` of the node features, the whole
  weight matrix and the whole bias row, and stores the block of the first dense layer they give; an entry of the block depends
  on ONE row of the features, the block's row `p`, which is row `8000 t + p` of the array. So the 125 blocks are the
  restrictions of one function of the arrays the region finds, and they cover the output array.
-/
import proofs.«175724_j9234179686641_2_alg».proof.Proof.Gen.KernelIdeal.Frame
import proofs.«175724_j9234179686641_2_alg».proof.Proof.Spec
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What is used of the body's stored value: its entry `(p, q)` is the layer's entry of row `p` of the feature block, column
    `q` of the weights and entry `q` of the bias row. -/
def PayAt : Prop :=
  ∀ (xb : Vec Ideal S8000x128 .f32) (wb : Vec Ideal S128x128 .f32) (bb : Vec Ideal S1x128 .f32) (p : Fin 8000) (q : Fin 128),
    k0_pay1 (F := Ideal) xb wb bb (ix2 p q)
      = Cert.Spec.dense1At (fun k => xb (ix2 p k)) (fun k => wb (ix2 k q)) (bb (ix2 (0 : Fin 1) q))

/-- The first layer of whole arrays, entry by entry: row `i 0` of the features against column `i 1` of the weights. -/
def layer (X : S1000000x128.Idx → EReal) (Wt : S128x128.Idx → EReal) (B : S1x128.Idx → EReal) : S1000000x128.Idx → EReal :=
  fun i => Cert.Spec.dense1At (fun k => X (ix2 ⟨(i 0).val, (i 0).isLt⟩ k)) (fun k => Wt (ix2 k ⟨(i 1).val, (i 1).isLt⟩))
    (B (ix2 (0 : Fin 1) ⟨(i 1).val, (i 1).isLt⟩))

/-- The printed index maps over the grid: the feature window and the output window move down one block of rows per point,
    the weights and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The array the output window ends holding: the layer of the features, the weights and the bias row as the region finds them. -/
def G (c : Dev nD) : Buf (Elt Ideal) ((cfg0.win 3).arr.view.loc (c.tc : Thread nD τ)) :=
  layer (V c main_arg0) (V c main_arg2) (V c main_v0)

/-- An entry of the stored block against the whole arrays: when row `p` of the feature block is row `i 0` of the features, column
    `q` of the weight block column `i 1` of the weights and entry `q` of the bias block entry `i 1` of the bias row, the block's
    entry `(p, q)` is the layer's entry `i`. -/
theorem entry (hpay : PayAt) (xb : Vec Ideal S8000x128 .f32) (wb : Vec Ideal S128x128 .f32) (bb : Vec Ideal S1x128 .f32)
    (X : S1000000x128.Idx → EReal) (Wt : S128x128.Idx → EReal) (B : S1x128.Idx → EReal)
    (p : Fin 8000) (q : Fin 128) (i : S1000000x128.Idx)
    (hx : ∀ k : Fin 128, xb (ix2 p k) = X (ix2 ⟨(i 0).val, (i 0).isLt⟩ k))
    (hw : ∀ k : Fin 128, wb (ix2 k q) = Wt (ix2 k ⟨(i 1).val, (i 1).isLt⟩))
    (hb : bb (ix2 (0 : Fin 1) q) = B (ix2 (0 : Fin 1) ⟨(i 1).val, (i 1).isLt⟩)) :
    k0_pay1 (F := Ideal) xb wb bb (ix2 p q) = layer X Wt B i := by
  rw [hpay xb wb bb p q]
  unfold layer
  rw [funext hx, funext hw, hb]

/-- The feature window's block at point `t` is rows `8000 t … 8000 t + 7999` of the features. -/
theorem blk0_apply (c : Dev nD) (t : Fin cfg0.N) (x : S8000x128.Idx) (k : S1000000x128.Idx)
    (hk0 : (k 0).val = 8000 * t.val + (x 0).val) (hk1 : (k 1).val = (x 1).val) :
    (iblk0 V c 0 t : Vec Ideal S8000x128 .f32) x = (V c main_arg0 : S1000000x128.Idx → EReal) k := by
  obtain ⟨e00, e01, -⟩ := idx_facts t
  unfold iblk0
  rw [View.read_apply]
  show V c main_arg0 _ = V c main_arg0 _
  congr 1
  funext a
  apply Fin.ext
  match a with
  | ⟨0, _⟩ => show win0_0.index t (0 : Fin 2) * 8000 + 1 * (x 0).val = (k 0).val; rw [e00, hk0]; omega
  | ⟨1, _⟩ => show win0_0.index t (1 : Fin 2) * 128 + 1 * (x 1).val = (k 1).val; rw [e01, hk1]; omega

/-- The weight window's block at every point is the weight matrix. -/
theorem blk1_apply (c : Dev nD) (t : Fin cfg0.N) (x : S128x128.Idx) (k : S128x128.Idx)
    (hk0 : (k 0).val = (x 0).val) (hk1 : (k 1).val = (x 1).val) :
    (iblk0 V c 1 t : Vec Ideal S128x128 .f32) x = (V c main_arg2 : S128x128.Idx → EReal) k := by
  obtain ⟨-, -, e10, e11, -⟩ := idx_facts t
  unfold iblk0
  rw [View.read_apply]
  show V c main_arg2 _ = V c main_arg2 _
  congr 1
  funext a
  apply Fin.ext
  match a with
  | ⟨0, _⟩ => show win0_1.index t (0 : Fin 2) * 128 + 1 * (x 0).val = (k 0).val; rw [e10, hk0]; omega
  | ⟨1, _⟩ => show win0_1.index t (1 : Fin 2) * 128 + 1 * (x 1).val = (k 1).val; rw [e11, hk1]; omega

/-- The bias window's block at every point is the bias row. -/
theorem blk2_apply (c : Dev nD) (t : Fin cfg0.N) (x : S1x128.Idx) (k : S1x128.Idx)
    (hk0 : (k 0).val = (x 0).val) (hk1 : (k 1).val = (x 1).val) :
    (iblk0 V c 2 t : Vec Ideal S1x128 .f32) x = (V c main_v0 : S1x128.Idx → EReal) k := by
  obtain ⟨-, -, -, -, e20, e21, -⟩ := idx_facts t
  unfold iblk0
  rw [View.read_apply]
  show V c main_v0 _ = V c main_v0 _
  congr 1
  funext a
  apply Fin.ext
  match a with
  | ⟨0, _⟩ => show win0_2.index t (0 : Fin 2) * 1 + 1 * (x 0).val = (k 0).val; rw [e20, hk0]; omega
  | ⟨1, _⟩ => show win0_2.index t (1 : Fin 2) * 128 + 1 * (x 1).val = (k 1).val; rw [e21, hk1]; omega

set_option maxHeartbeats 400000 in
/-- WHAT POINT `t` WRITES BACK is block `t` of `G`. -/
theorem flushed_eq (hpay : PayAt) (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S8000x128) hz, View.ld_unit_zero (S := S128x128) hz, View.ld_unit_zero (S := S1x128) hz]
  funext j
  obtain ⟨-, -, -, -, -, -, e30, e31⟩ := idx_facts t
  have hy : (win0 3).xinj (grid0.coords t) j
      = ix2 ((win0 3).xinj (grid0.coords t) j 0 : Fin 8000) ((win0 3).xinj (grid0.coords t) j 1 : Fin 128) := eq_ix2 _
  have hi0 : ((((cfg0.win 3).blk t).view.emb j) 0).val = 8000 * t.val + (j 0).val := by
    show win0_3.index t (0 : Fin 2) * 8000 + 1 * (j 0).val = _
    rw [e30]; omega
  have hi1 : ((((cfg0.win 3).blk t).view.emb j) 1).val = (j 1).val := by
    show win0_3.index t (1 : Fin 2) * 128 + 1 * (j 1).val = _
    rw [e31]; omega
  show k0_pay1 (F := Ideal) (iblk0 V c 0 t) (iblk0 V c 1 t) (iblk0 V c 2 t) ((win0 3).xinj (grid0.coords t) j) = _
  rw [View.read_apply, cast_eq]
  refine (congrArg (k0_pay1 (F := Ideal) (iblk0 V c 0 t) (iblk0 V c 1 t) (iblk0 V c 2 t)) hy).trans ?_
  exact entry hpay (iblk0 V c 0 t) (iblk0 V c 1 t) (iblk0 V c 2 t) (V c main_arg0) (V c main_arg2) (V c main_v0)
    ((win0 3).xinj (grid0.coords t) j 0) ((win0 3).xinj (grid0.coords t) j 1) (((cfg0.win 3).blk t).view.emb j)
    (fun k => blk0_apply V c t _ _ hi0 rfl)
    (fun k => blk1_apply V c t _ _ rfl hi1)
    (blk2_apply V c t _ _ rfl hi1)

/-- An index of the array is in point `t`'s block iff each coordinate is in the block's range on its axis. -/
theorem mem_blk (t : Fin cfg0.N) (i : S1000000x128.Idx) :
    i ∈ ((cfg0.win 3).blk t).view.set ↔ ∀ a : Fin 2, win0_3.index t a * S8000x128.size a ≤ (i a).val ∧ (i a).val < win0_3.index t a * S8000x128.size a + S8000x128.size a := by
  show i ∈ ((View.whole main_v1).slice (win0_3.rect t)).set ↔ _
  rw [View.set_slice_whole, Rect.mem_set_unit]
  exact Iff.rfl

/-- Every row of the array is in the block of the point its number divided by 8000 names. -/
theorem cover (i : S1000000x128.Idx) : ∃ t : Fin cfg0.N, (cfg0.win 3).flush t = true ∧ i ∈ ((cfg0.win 3).blk t).view.set := by
  have hi0 : (i 0).val < 1000000 := (i 0).isLt
  have hi1 : (i 1).val < 128 := (i 1).isLt
  have hN : cfg0.N = 125 := N_0
  obtain ⟨t, ht⟩ : ∃ t : Fin cfg0.N, t.val = (i 0).val / 8000 := ⟨⟨(i 0).val / 8000, by rw [hN]; omega⟩, rfl⟩
  obtain ⟨-, -, -, -, -, -, e30, e31⟩ := idx_facts t
  refine ⟨t, flush0_3 t, ?_⟩
  rw [mem_blk]
  intro a
  match a with
  | ⟨0, _⟩ =>
    show win0_3.index t (0 : Fin 2) * 8000 ≤ (i 0).val ∧ (i 0).val < win0_3.index t (0 : Fin 2) * 8000 + 8000
    rw [e30, ht]; omega
  | ⟨1, _⟩ =>
    show win0_3.index t (1 : Fin 2) * 128 ≤ (i 1).val ∧ (i 1).val < win0_3.index t (1 : Fin 2) * 128 + 128
    rw [e31]; omega

/-- THE ARRAY after the region: the first layer of the arrays the region finds. -/
theorem final (hpay : PayAt) (c : Dev nD) : (dat0 V c).arrAt 3 cfg0.N = G V c :=
  (dat0 V c).arrAt_eq_of_cover 3 (G V c) (fun t _ => flushed_eq V hpay c t) cover

end Cert.KernelIdeal.Region0

end
-- ==== Proof.Region1.lean ====
/-
  The second region's output array. Each grid point `t` holds rows `8000 t … 8000 t + 7999` of the aggregated features, the
  whole second weight matrix and the whole second bias row, and stores the block of the second dense layer they give; an entry of
  the block depends on ONE row of the aggregated features, the block's row `p`, which is row `8000 t + p` of the array. So the
  125 blocks are the restrictions of one function of the arrays the region finds, and they cover the output array.
-/
import proofs.«175724_j9234179686641_2_alg».proof.Proof.Gen.KernelIdeal.Frame
import proofs.«175724_j9234179686641_2_alg».proof.Proof.Spec
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What is used of the body's stored value: its entry `(p, q)` is the layer's entry of row `p` of the aggregated block, column
    `q` of the weights and entry `q` of the bias row. -/
def PayAt : Prop :=
  ∀ (ab : Vec Ideal S8000x128 .f32) (wb : Vec Ideal S128x16 .f32) (bb : Vec Ideal S1x16 .f32) (p : Fin 8000) (q : Fin 16),
    k1_pay1 (F := Ideal) ab wb bb (ix2 p q)
      = Cert.Spec.dense2At (fun k => ab (ix2 p k)) (fun k => wb (ix2 k q)) (bb (ix2 (0 : Fin 1) q))

/-- The second layer of whole arrays, entry by entry: row `i 0` of the aggregated features against column `i 1` of the weights. -/
def layer (A : S1000000x128.Idx → EReal) (Wt : S128x16.Idx → EReal) (B : S1x16.Idx → EReal) : S1000000x16.Idx → EReal :=
  fun i => Cert.Spec.dense2At (fun k => A (ix2 ⟨(i 0).val, (i 0).isLt⟩ k)) (fun k => Wt (ix2 k ⟨(i 1).val, (i 1).isLt⟩))
    (B (ix2 (0 : Fin 1) ⟨(i 1).val, (i 1).isLt⟩))

/-- The printed index maps over the grid: the aggregated window and the output window move down one block of rows per point,
    the weights and the bias stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The array the output window ends holding: the layer of the aggregated features, the weights and the bias row as the region
    finds them. -/
def G (c : Dev nD) : Buf (Elt Ideal) ((cfg1.win 3).arr.view.loc (c.tc : Thread nD τ)) :=
  layer (V c main_v39) (V c main_arg4) (V c main_v40)

/-- An entry of the stored block against the whole arrays: when row `p` of the aggregated block is row `i 0` of the aggregated
    features, column `q` of the weight block column `i 1` of the weights and entry `q` of the bias block entry `i 1` of the bias
    row, the block's entry `(p, q)` is the layer's entry `i`. -/
theorem entry (hpay : PayAt) (ab : Vec Ideal S8000x128 .f32) (wb : Vec Ideal S128x16 .f32) (bb : Vec Ideal S1x16 .f32)
    (A : S1000000x128.Idx → EReal) (Wt : S128x16.Idx → EReal) (B : S1x16.Idx → EReal)
    (p : Fin 8000) (q : Fin 16) (i : S1000000x16.Idx)
    (hx : ∀ k : Fin 128, ab (ix2 p k) = A (ix2 ⟨(i 0).val, (i 0).isLt⟩ k))
    (hw : ∀ k : Fin 128, wb (ix2 k q) = Wt (ix2 k ⟨(i 1).val, (i 1).isLt⟩))
    (hb : bb (ix2 (0 : Fin 1) q) = B (ix2 (0 : Fin 1) ⟨(i 1).val, (i 1).isLt⟩)) :
    k1_pay1 (F := Ideal) ab wb bb (ix2 p q) = layer A Wt B i := by
  rw [hpay ab wb bb p q]
  unfold layer
  rw [funext hx, funext hw, hb]

/-- The aggregated window's block at point `t` is rows `8000 t … 8000 t + 7999` of the aggregated features. -/
theorem blk0_apply (c : Dev nD) (t : Fin cfg1.N) (x : S8000x128.Idx) (k : S1000000x128.Idx)
    (hk0 : (k 0).val = 8000 * t.val + (x 0).val) (hk1 : (k 1).val = (x 1).val) :
    (iblk1 V c 0 t : Vec Ideal S8000x128 .f32) x = (V c main_v39 : S1000000x128.Idx → EReal) k := by
  obtain ⟨e00, e01, -⟩ := idx_facts t
  unfold iblk1
  rw [View.read_apply]
  show V c main_v39 _ = V c main_v39 _
  congr 1
  funext a
  apply Fin.ext
  match a with
  | ⟨0, _⟩ => show win1_0.index t (0 : Fin 2) * 8000 + 1 * (x 0).val = (k 0).val; rw [e00, hk0]; omega
  | ⟨1, _⟩ => show win1_0.index t (1 : Fin 2) * 128 + 1 * (x 1).val = (k 1).val; rw [e01, hk1]; omega

/-- The weight window's block at every point is the weight matrix. -/
theorem blk1_apply (c : Dev nD) (t : Fin cfg1.N) (x : S128x16.Idx) (k : S128x16.Idx)
    (hk0 : (k 0).val = (x 0).val) (hk1 : (k 1).val = (x 1).val) :
    (iblk1 V c 1 t : Vec Ideal S128x16 .f32) x = (V c main_arg4 : S128x16.Idx → EReal) k := by
  obtain ⟨-, -, e10, e11, -⟩ := idx_facts t
  unfold iblk1
  rw [View.read_apply]
  show V c main_arg4 _ = V c main_arg4 _
  congr 1
  funext a
  apply Fin.ext
  match a with
  | ⟨0, _⟩ => show win1_1.index t (0 : Fin 2) * 128 + 1 * (x 0).val = (k 0).val; rw [e10, hk0]; omega
  | ⟨1, _⟩ => show win1_1.index t (1 : Fin 2) * 16 + 1 * (x 1).val = (k 1).val; rw [e11, hk1]; omega

/-- The bias window's block at every point is the bias row. -/
theorem blk2_apply (c : Dev nD) (t : Fin cfg1.N) (x : S1x16.Idx) (k : S1x16.Idx)
    (hk0 : (k 0).val = (x 0).val) (hk1 : (k 1).val = (x 1).val) :
    (iblk1 V c 2 t : Vec Ideal S1x16 .f32) x = (V c main_v40 : S1x16.Idx → EReal) k := by
  obtain ⟨-, -, -, -, e20, e21, -⟩ := idx_facts t
  unfold iblk1
  rw [View.read_apply]
  show V c main_v40 _ = V c main_v40 _
  congr 1
  funext a
  apply Fin.ext
  match a with
  | ⟨0, _⟩ => show win1_2.index t (0 : Fin 2) * 1 + 1 * (x 0).val = (k 0).val; rw [e20, hk0]; omega
  | ⟨1, _⟩ => show win1_2.index t (1 : Fin 2) * 16 + 1 * (x 1).val = (k 1).val; rw [e21, hk1]; omega

set_option maxHeartbeats 400000 in
/-- WHAT POINT `t` WRITES BACK is block `t` of `G`. -/
theorem flushed_eq (hpay : PayAt) (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S8000x128) hz, View.ld_unit_zero (S := S128x16) hz, View.ld_unit_zero (S := S1x16) hz]
  funext j
  obtain ⟨-, -, -, -, -, -, e30, e31⟩ := idx_facts t
  have hy : (win1 3).xinj (grid1.coords t) j
      = ix2 ((win1 3).xinj (grid1.coords t) j 0 : Fin 8000) ((win1 3).xinj (grid1.coords t) j 1 : Fin 16) := eq_ix2 _
  have hi0 : ((((cfg1.win 3).blk t).view.emb j) 0).val = 8000 * t.val + (j 0).val := by
    show win1_3.index t (0 : Fin 2) * 8000 + 1 * (j 0).val = _
    rw [e30]; omega
  have hi1 : ((((cfg1.win 3).blk t).view.emb j) 1).val = (j 1).val := by
    show win1_3.index t (1 : Fin 2) * 16 + 1 * (j 1).val = _
    rw [e31]; omega
  show k1_pay1 (F := Ideal) (iblk1 V c 0 t) (iblk1 V c 1 t) (iblk1 V c 2 t) ((win1 3).xinj (grid1.coords t) j) = _
  rw [View.read_apply, cast_eq]
  refine (congrArg (k1_pay1 (F := Ideal) (iblk1 V c 0 t) (iblk1 V c 1 t) (iblk1 V c 2 t)) hy).trans ?_
  exact entry hpay (iblk1 V c 0 t) (iblk1 V c 1 t) (iblk1 V c 2 t) (V c main_v39) (V c main_arg4) (V c main_v40)
    ((win1 3).xinj (grid1.coords t) j 0) ((win1 3).xinj (grid1.coords t) j 1) (((cfg1.win 3).blk t).view.emb j)
    (fun k => blk0_apply V c t _ _ hi0 rfl)
    (fun k => blk1_apply V c t _ _ rfl hi1)
    (blk2_apply V c t _ _ rfl hi1)

/-- An index of the array is in point `t`'s block iff each coordinate is in the block's range on its axis. -/
theorem mem_blk (t : Fin cfg1.N) (i : S1000000x16.Idx) :
    i ∈ ((cfg1.win 3).blk t).view.set ↔ ∀ a : Fin 2, win1_3.index t a * S8000x16.size a ≤ (i a).val ∧ (i a).val < win1_3.index t a * S8000x16.size a + S8000x16.size a := by
  show i ∈ ((View.whole main_v41).slice (win1_3.rect t)).set ↔ _
  rw [View.set_slice_whole, Rect.mem_set_unit]
  exact Iff.rfl

/-- Every row of the array is in the block of the point its number divided by 8000 names. -/
theorem cover (i : S1000000x16.Idx) : ∃ t : Fin cfg1.N, (cfg1.win 3).flush t = true ∧ i ∈ ((cfg1.win 3).blk t).view.set := by
  have hi0 : (i 0).val < 1000000 := (i 0).isLt
  have hi1 : (i 1).val < 16 := (i 1).isLt
  have hN : cfg1.N = 125 := N_1
  obtain ⟨t, ht⟩ : ∃ t : Fin cfg1.N, t.val = (i 0).val / 8000 := ⟨⟨(i 0).val / 8000, by rw [hN]; omega⟩, rfl⟩
  obtain ⟨-, -, -, -, -, -, e30, e31⟩ := idx_facts t
  refine ⟨t, flush1_3 t, ?_⟩
  rw [mem_blk]
  intro a
  match a with
  | ⟨0, _⟩ =>
    show win1_3.index t (0 : Fin 2) * 8000 ≤ (i 0).val ∧ (i 0).val < win1_3.index t (0 : Fin 2) * 8000 + 8000
    rw [e30, ht]; omega
  | ⟨1, _⟩ =>
    show win1_3.index t (1 : Fin 2) * 16 ≤ (i 1).val ∧ (i 1).val < win1_3.index t (1 : Fin 2) * 16 + 16
    rw [e31]; omega

/-- THE ARRAY after the region: the second layer of the arrays the region finds. -/
theorem final (hpay : PayAt) (c : Dev nD) : (dat1 V c).arrAt 3 cfg1.N = G V c :=
  (dat1 V c).arrAt_eq_of_cover 3 (G V c) (fun t _ => flushed_eq V hpay c t) cover

end Cert.KernelIdeal.Region1

end
-- ==== Proof.Net.lean ====
/-
  The network after its first layer, named once over the reference's own operations: the aggregation (every edge's row of the
  hidden features added into the row its slot names) and the second dense layer. The reference's result is the second layer of
  the aggregation of its first layer; the kernel's program meets the same two functions with its own first-layer array.
-/
import proofs.«175724_j9234179686641_2_alg».proof.Proof.RefReadP

noncomputable section

namespace Cert.Net

open Cert.ReferenceIdeal Cert.ReferenceIdeal.Gen Idealize.ShloMosaic Idealize.ShloMosaic.TcCoe Idealize.SL.Sem Idealize.ShloMosaic.StableHlo

variable {F : FTy → Type} [FloatOps F]

/-- The aggregation: into an array of zeros, row `e` of the hidden features `H` is added at row `s e`. -/
def aggregate (H : (⟨S1000000x128, .f32⟩ : BufTy).Contents (Elt F)) (s : (⟨S1000000, .i32⟩ : BufTy).Contents (Elt F)) :
    (⟨S1000000x128, .f32⟩ : BufTy).Contents (Elt F) :=
  Host.scatterAdd scatter_S1000000x128_S1000000x1_S1000000x128_1_0_0_1 (ReadP.val_main_v39 (F := F))
    (broadcastInDim S1000000x1 ![0] bcast_S1000000_S1000000x1_0 s) H

/-- The second dense layer: the aggregated features cut off below at zero, times the weights, plus the bias on every row. -/
def layer2 (A : (⟨S1000000x128, .f32⟩ : BufTy).Contents (Elt F)) (x4 : (⟨S128x16, .f32⟩ : BufTy).Contents (Elt F))
    (x5 : (⟨S16, .f32⟩ : BufTy).Contents (Elt F)) : (⟨S1000000x16, .f32⟩ : BufTy).Contents (Elt F) :=
  addf (Host.dotGeneral dot_S1000000x128_S128x16_S1000000x16_1_0_0_1_n_n none (maximumf A (ReadP.val_main_call2_v0 (F := F))) x4)
    (ReadP.val_main_v45 (F := F) x5)

/-- The reference's result is the second layer of the aggregation, by the slots, of its first layer. -/
theorem result_eq_layers (x0 : (⟨S1000000x128, .f32⟩ : BufTy).Contents (Elt F)) (x1 : (⟨S1000000x2, .i32⟩ : BufTy).Contents (Elt F))
    (x2 : (⟨S128x128, .f32⟩ : BufTy).Contents (Elt F)) (x3 : (⟨S128, .f32⟩ : BufTy).Contents (Elt F))
    (x4 : (⟨S128x16, .f32⟩ : BufTy).Contents (Elt F)) (x5 : (⟨S16, .f32⟩ : BufTy).Contents (Elt F)) :
    ReadP.val_main_v46 (F := F) x0 x1 x2 x3 x4 x5
      = layer2 (aggregate (ReadP.val_main_v4 (F := F) x0 x2 x3) (ReadP.val_main_v38 (F := F) x1)) x4 x5 := rfl

end Cert.Net

end
-- ==== Proof.LibAfter.lean ====
/-
  Two general facts about a list of host operations run as a fold over buffer contents.
-/
import Idealize.ShloMosaic.Lib.StableHlo.Run

namespace Cert.Lib

open Idealize.ShloMosaic Idealize.ShloMosaic.StableHlo

variable {τ : Topo} {sig : RefSig} {Val : EltTy → Type}

/-- The fold of a concatenation of two operation lists is the second list's fold over the first's: the operations run
    in order, so splitting the list anywhere splits the run there. -/
theorem after_append (l₁ l₂ : List (HloOp τ sig Val)) (X : Valuation τ sig Val) :
    after (l₁ ++ l₂) X = after l₂ (after l₁ X) := by
  induction l₁ generalizing X with
  | nil => rfl
  | cons op l ih => exact ih (op.result X)

/-- A typed reference's view of a buffer's contents undoes its own embedding: reading back what was written through the
    same typed reference is the identity. -/
theorem ofBuf_toBuf {T : BufTy} (x : TRef sig T) (v : T.Contents Val) : x.ofBuf (x.toBuf v) = v := by
  obtain ⟨ref, hty, hd, hu⟩ := x
  subst hty
  rfl

end Cert.Lib
-- ==== Proof.HostK.lean ====
/-
  The kernel program's host operations between its regions, read back as functions. Before the first region one reshape
  (the bias as a row). Between the two regions 52 operations in three stretches: the index glue on the edge list (slice,
  wrap into range, a scatter of positions, a sort with the positions carried along, one more scatter and two gathers),
  which is operation for operation the reference's own glue and so leaves, in the kernel's buffers, the reference's stages;
  then the widening of the first region's output, the scatter-add of its rows by slot — the aggregation — and the reshape
  of the second bias. Each stretch is read back alone against the reference's stages and the stretches are chained; a
  buffer a stretch does not write passes through it unchanged.
-/
import proofs.«175724_j9234179686641_2_alg».proof.Proof.Gen.KernelIdeal.Launch
import proofs.«175724_j9234179686641_2_alg».proof.Proof.Net
import proofs.«175724_j9234179686641_2_alg».proof.Proof.LibAfter

noncomputable section

namespace Cert.HostK

open Cert.KernelIdeal Cert.KernelIdeal.Gen Idealize.ShloMosaic Idealize.ShloMosaic.TcCoe Idealize.SL.Sem Idealize.ShloMosaic.StableHlo

variable {F : FTy → Type} [FloatOps F]

/-- Every operation of a literal list writes only its own result buffer, which the given list of references holds. -/
local macro "writes_in" : tactic =>
  `(tactic| (simp only [List.Forall]
             and_intros <;>
               (simp only [nullary_writes, unary_writes, binary_writes, ternary_writes, reshape_writes,
                  Finset.singleton_subset_iff, List.mem_toFinset]
                exact List.mem_map_of_mem (by decide))))

/-! ## Before the first region -/

theorem hostOps0_writes :
    (hostOps0 (F := F)).Forall fun op => op.writes ⊆ (([main_v0] : List (Ref sig .tc)).map (Proc.devRef (τ := τ) .tc)).toFinset := by
  writes_in

/-- The one operation before the first region leaves the bias reshaped to a row in its result buffer, -/
theorem v0_eq (W : Valuation τ sig (Elt F)) :
    after (hostOps0 (F := F)) W (Proc.devRef .tc main_v0)
      = shapeCast S1x128 (W (Proc.devRef .tc main_arg3)) shapeCasts_S128_S1x128 := by
  after_results_simp
  rfl

/-- and every other buffer as it was. -/
theorem kept0 (W : Valuation τ sig (Elt F)) (b : Ref sig .tc) (hb : b ≠ main_v0) :
    after (hostOps0 (F := F)) W (Proc.devRef .tc b) = W (Proc.devRef .tc b) :=
  after_of_writes_sub hostOps0 W hostOps0_writes fun h => hb (List.mem_singleton.mp h)

/-! ## Between the regions -/

/-- The third stretch cut in two: the glue after the sort (29 operations, down to the slot of every edge), -/
abbrev glue : List (HloOp τ sig (Elt F)) := (hostOps1_2 (F := F)).take 29
/-- and the six operations around the scatter-add. -/
abbrev tail : List (HloOp τ sig (Elt F)) := (hostOps1_2 (F := F)).drop 29

theorem hostOps1_2_split : (hostOps1_2 (F := F)) = glue ++ tail := rfl

/-- A cut written out as the literal list of its operations. -/
local macro "stretch" : tactic =>
  `(tactic| simp only [glue, tail, hostOps1_2, List.drop_succ_cons, List.drop_zero, List.take_succ_cons, List.take_zero])

abbrev h1_W : List (Ref sig .tc) :=
  [main_v2, main_v3, main_v4, main_c, main_v5, main_c_0, main_v6, main_v7, main_c_1, main_v8, main_v9, main_v10, main_v11, main_v12]
abbrev h11_W : List (Ref sig .tc) := [main_call0_v0, main_call0_v1_0, main_v13]
abbrev glue_W : List (Ref sig .tc) :=
  [main_c_2, main_v14, main_c_3, main_v15, main_v16, main_c_4, main_v17, main_v18, main_v19, main_v20, main_v21, main_c_5, main_v22,
   main_v23, main_c_6, main_v24, main_v25, main_v26, main_v27, main_v28, main_c_7, main_v29, main_v30, main_c_8, main_v31, main_v32,
   main_v33, main_v34, main_v35]
abbrev tail_W : List (Ref sig .tc) := [main_v36, main_cst, main_v37, main_v38, main_v39, main_v40]

theorem h1_writes : (hostOps1 (F := F)).Forall fun op => op.writes ⊆ (h1_W.map (Proc.devRef (τ := τ) .tc)).toFinset := by
  writes_in
theorem h11_writes : (hostOps1_1 (F := F)).Forall fun op => op.writes ⊆ (h11_W.map (Proc.devRef (τ := τ) .tc)).toFinset := by
  writes_in
theorem glue_writes : (glue (F := F)).Forall fun op => op.writes ⊆ (glue_W.map (Proc.devRef (τ := τ) .tc)).toFinset := by
  stretch; writes_in
theorem tail_writes : (tail (F := F)).Forall fun op => op.writes ⊆ (tail_W.map (Proc.devRef (τ := τ) .tc)).toFinset := by
  stretch; writes_in

/-- A buffer a stretch does not write keeps its contents through it. -/
theorem keep1 (W : Valuation τ sig (Elt F)) (r : Ref sig .tc) (h : r ∉ h1_W) :
    after (hostOps1 (F := F)) W (Proc.devRef .tc r) = W (Proc.devRef .tc r) := after_of_writes_sub hostOps1 W h1_writes h
theorem keep11 (W : Valuation τ sig (Elt F)) (r : Ref sig .tc) (h : r ∉ h11_W) :
    after (hostOps1_1 (F := F)) W (Proc.devRef .tc r) = W (Proc.devRef .tc r) := after_of_writes_sub hostOps1_1 W h11_writes h
theorem keepGlue (W : Valuation τ sig (Elt F)) (r : Ref sig .tc) (h : r ∉ glue_W) :
    after (glue (F := F)) W (Proc.devRef .tc r) = W (Proc.devRef .tc r) := after_of_writes_sub glue W glue_writes h
theorem keepTail (W : Valuation τ sig (Elt F)) (r : Ref sig .tc) (h : r ∉ tail_W) :
    after (tail (F := F)) W (Proc.devRef .tc r) = W (Proc.devRef .tc r) := after_of_writes_sub tail W tail_writes h

/-! ### What each stretch computes, against the reference's stages -/

/-- The first stretch reads the edge list only. It leaves the scatter of positions, the wrapped first column and the
    positions where the reference's stages 15, 6 and 7 say. -/
theorem h1_v12 (W : Valuation τ sig (Elt F)) :
    after (hostOps1 (F := F)) W (Proc.devRef .tc main_v12)
      = Cert.ReferenceIdeal.ReadP.val_main_v15 (F := F) (W (Proc.devRef .tc main_arg1)) := by
  after_results_simp
  rfl
theorem h1_v3 (W : Valuation τ sig (Elt F)) :
    after (hostOps1 (F := F)) W (Proc.devRef .tc main_v3)
      = Cert.ReferenceIdeal.ReadP.val_main_v6 (F := F) (W (Proc.devRef .tc main_arg1)) := by
  after_results_simp
  rfl
theorem h1_v4 (W : Valuation τ sig (Elt F)) :
    after (hostOps1 (F := F)) W (Proc.devRef .tc main_v4) = Cert.ReferenceIdeal.ReadP.val_main_v7 (F := F) := by
  after_results_simp
  rfl

/-- The sort: from the scatter's result at the reference's stage 15, the carried positions are at its stage 16. -/
theorem h11_v13 (W : Valuation τ sig (Elt F)) (x1 : (⟨Cert.ReferenceIdeal.S1000000x2, .i32⟩ : BufTy).Contents (Elt F))
    (h12 : W (Proc.devRef .tc main_v12) = Cert.ReferenceIdeal.ReadP.val_main_v15 (F := F) x1) :
    after (hostOps1_1 (F := F)) W (Proc.devRef .tc main_v13) = Cert.ReferenceIdeal.ReadP.val_main_v16 (F := F) x1 := by
  after_results_simp
  simp only [Cert.Lib.ofBuf_toBuf, TRef.ofBuf, TRef.toBuf, cast_eq]
  rw [h12]
  simp only [Cert.ReferenceIdeal.ReadP.val_main_v16, Cert.ReferenceIdeal.ReadP.val_main_call1_v0]
  rfl

/-- The glue after the sort: from the sorted positions, the wrapped column and the positions at the reference's stages,
    the slot of every edge is at the reference's stage 38. -/
theorem glue_v35 (W : Valuation τ sig (Elt F)) (x1 : (⟨Cert.ReferenceIdeal.S1000000x2, .i32⟩ : BufTy).Contents (Elt F))
    (h13 : W (Proc.devRef .tc main_v13) = Cert.ReferenceIdeal.ReadP.val_main_v16 (F := F) x1)
    (h3 : W (Proc.devRef .tc main_v3) = Cert.ReferenceIdeal.ReadP.val_main_v6 (F := F) x1)
    (h4 : W (Proc.devRef .tc main_v4) = Cert.ReferenceIdeal.ReadP.val_main_v7 (F := F)) :
    after (glue (F := F)) W (Proc.devRef .tc main_v35) = Cert.ReferenceIdeal.ReadP.val_main_v38 (F := F) x1 := by
  stretch
  after_results_simp
  rw [h13, h3, h4]
  rfl

/-- The scatter-add is the aggregation: the widened rows of the first region's output, added by slot into zeros. -/
theorem tail_v39 (W : Valuation τ sig (Elt F)) :
    after (tail (F := F)) W (Proc.devRef .tc main_v39)
      = Cert.Net.aggregate (F := F) (extf .f32 (W (Proc.devRef .tc main_v1)) bitsLt_bf16_f32) (W (Proc.devRef .tc main_v35)) := by
  stretch
  after_results_simp
  rfl

/-- The last operation leaves the second bias reshaped to a row. -/
theorem tail_v40 (W : Valuation τ sig (Elt F)) :
    after (tail (F := F)) W (Proc.devRef .tc main_v40) = shapeCast S1x16 (W (Proc.devRef .tc main_arg5)) shapeCasts_S16_S1x16 := by
  stretch
  after_results_simp
  rfl

/-! ### The stretches run one after the other -/

/-- The buffer contents after all the operations between the regions. -/
abbrev mid (W : Valuation τ sig (Elt F)) : Valuation τ sig (Elt F) := after hostOps1_2 (after hostOps1_1 (after hostOps1 W))

/-- The contents after the first stretch, the first two, and the glue after them. -/
abbrev V1 (W : Valuation τ sig (Elt F)) : Valuation τ sig (Elt F) := after hostOps1 W
abbrev V2 (W : Valuation τ sig (Elt F)) : Valuation τ sig (Elt F) := after hostOps1_1 (V1 W)
abbrev V3 (W : Valuation τ sig (Elt F)) : Valuation τ sig (Elt F) := after glue (V2 W)

theorem mid_eq (W : Valuation τ sig (Elt F)) : mid W = after tail (V3 W) := by
  show after hostOps1_2 (V2 W) = _
  rw [hostOps1_2_split, Cert.Lib.after_append]

/-- A buffer none of the first three stretches writes still holds its first contents after them. -/
theorem V3_keep (W : Valuation τ sig (Elt F)) (r : Ref sig .tc) (h1 : r ∉ h1_W) (h2 : r ∉ h11_W) (h3 : r ∉ glue_W) :
    V3 W (Proc.devRef .tc r) = W (Proc.devRef .tc r) :=
  (keepGlue (V2 W) r h3).trans ((keep11 (V1 W) r h2).trans (keep1 W r h1))

theorem V2_v13 (W : Valuation τ sig (Elt F)) :
    V2 W (Proc.devRef .tc main_v13) = Cert.ReferenceIdeal.ReadP.val_main_v16 (F := F) (W (Proc.devRef .tc main_arg1)) :=
  h11_v13 (V1 W) _ (h1_v12 W)
theorem V2_v3 (W : Valuation τ sig (Elt F)) :
    V2 W (Proc.devRef .tc main_v3) = Cert.ReferenceIdeal.ReadP.val_main_v6 (F := F) (W (Proc.devRef .tc main_arg1)) :=
  (keep11 (V1 W) main_v3 (by decide)).trans (h1_v3 W)
theorem V2_v4 (W : Valuation τ sig (Elt F)) :
    V2 W (Proc.devRef .tc main_v4) = Cert.ReferenceIdeal.ReadP.val_main_v7 (F := F) :=
  (keep11 (V1 W) main_v4 (by decide)).trans (h1_v4 W)
theorem V3_v35 (W : Valuation τ sig (Elt F)) :
    V3 W (Proc.devRef .tc main_v35) = Cert.ReferenceIdeal.ReadP.val_main_v38 (F := F) (W (Proc.devRef .tc main_arg1)) :=
  glue_v35 (V2 W) _ (V2_v13 W) (V2_v3 W) (V2_v4 W)

/-- After the operations between the regions the scatter-add's result is the aggregation, by the reference's slots of the
    edge list, of the first region's output widened. -/
theorem agg_eq (W : Valuation τ sig (Elt F)) :
    mid W (Proc.devRef .tc main_v39)
      = Cert.Net.aggregate (F := F) (extf .f32 (W (Proc.devRef .tc main_v1)) bitsLt_bf16_f32)
          (Cert.ReferenceIdeal.ReadP.val_main_v38 (F := F) (W (Proc.devRef .tc main_arg1))) := by
  rw [mid_eq, tail_v39, V3_v35, V3_keep W main_v1 (by decide) (by decide) (by decide)]

/-- The second bias, reshaped to a row, is in its buffer. -/
theorem v40_eq (W : Valuation τ sig (Elt F)) :
    mid W (Proc.devRef .tc main_v40) = shapeCast S1x16 (W (Proc.devRef .tc main_arg5)) shapeCasts_S16_S1x16 := by
  rw [mid_eq, tail_v40, V3_keep W main_arg5 (by decide) (by decide) (by decide)]

/-- The second layer's weights are untouched. -/
theorem mid_arg4 (W : Valuation τ sig (Elt F)) : mid W (Proc.devRef .tc main_arg4) = W (Proc.devRef .tc main_arg4) := by
  rw [mid_eq, keepTail (V3 W) main_arg4 (by decide), V3_keep W main_arg4 (by decide) (by decide) (by decide)]

end Cert.HostK

end
-- ==== Proof.Entries.lean ====
/-
  The two dense layers read one output entry at a time, over the extended reals.

  An entry of a row-blocked layer of the kernel program and the same entry of the whole-array layer of the reference are each
  the same function of ONE row of the left operand, one column of the weights and one bias entry: the product of a row with a
  column is the sum over the 128 contracted positions, the bias is one row repeated down the array, the cut-off below at zero
  acts entry by entry, and a change of float format does nothing to an extended real.
-/
import proofs.«175724_j9234179686641_2_alg».proof.Proof.Gen.KernelIdeal.Skeleton
import proofs.«175724_j9234179686641_2_alg».proof.Proof.Net
import proofs.«175724_j9234179686641_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Entries

open Idealize.ShloMosaic Idealize.ShloMosaic.ValueIdx
open scoped BigOperators

/-! ## The kernel program's two payloads -/

section Kernel

open Cert.KernelIdeal Cert.KernelIdeal.Gen

/-- The left operand's index of the first product, on the row axis: the output's row. -/
theorem lhsA_0 (i : S8000x128.Idx) (c : dot_S8000x128_S128x128_S8000x128_1_0_0_1_n_n.contr.Idx) :
    (dot_S8000x128_S128x128_S8000x128_1_0_0_1_n_n.lhsIdx i c 0).val = (i 0).val := by
  unfold DotDims.lhsIdx
  rw [dif_neg (show ¬(0 : Fin S8000x128.rank) ∈ dot_S8000x128_S128x128_S8000x128_1_0_0_1_n_n.lhsBatch by decide),
    dif_pos (show (0 : Fin S8000x128.rank) ∈ dot_S8000x128_S128x128_S8000x128_1_0_0_1_n_n.lhsNonContracting by decide)]
  rfl

/-- The right operand's index of the first product, on the column axis: the output's column. -/
theorem rhsA_1 (i : S8000x128.Idx) (c : dot_S8000x128_S128x128_S8000x128_1_0_0_1_n_n.contr.Idx) :
    (dot_S8000x128_S128x128_S8000x128_1_0_0_1_n_n.rhsIdx i c 1).val = (i 1).val := by
  unfold DotDims.rhsIdx
  rw [dif_neg (show ¬(1 : Fin S128x128.rank) ∈ dot_S8000x128_S128x128_S8000x128_1_0_0_1_n_n.rhsBatch by decide),
    dif_pos (show (1 : Fin S128x128.rank) ∈ dot_S8000x128_S128x128_S8000x128_1_0_0_1_n_n.rhsNonContracting by decide)]
  rfl

/-- The first block product into zeros, at row `p` and column `q`: the sum over the contracted position `k` of the left
    operand at `(p, k)` times the right operand at `(k, q)`. -/
theorem matmulA_at (l : FVec Ideal S8000x128 .bf16) (r : FVec Ideal S128x128 .bf16) (p : Fin 8000) (q : Fin 128) :
    matmul dot_S8000x128_S128x128_S8000x128_1_0_0_1_n_n none l r (constant S8000x128 .f32 0x00000000#32) (ix2 p q)
      = ∑ k : Fin 128, l (ix2 p k) * r (ix2 k q) := by
  refine (Ideal.matmul_constant_zero_apply dot_S8000x128_S128x128_S8000x128_1_0_0_1_n_n none l r (ix2 p q)).trans ?_
  rw [← Equiv.sum_comp (ValueIdx.contrEquiv1 dot_S8000x128_S128x128_S8000x128_1_0_0_1_n_n 128 rfl rfl).symm]
  refine Finset.sum_congr rfl fun k _ => ?_
  have hk := ValueIdx.contrEquiv1_symm_val dot_S8000x128_S128x128_S8000x128_1_0_0_1_n_n 128 rfl rfl k
  have el : dot_S8000x128_S128x128_S8000x128_1_0_0_1_n_n.lhsIdx (ix2 p q)
      ((ValueIdx.contrEquiv1 dot_S8000x128_S128x128_S8000x128_1_0_0_1_n_n 128 rfl rfl).symm k) = ix2 p k :=
    funext fun a => Fin.ext (by
      match a with
      | ⟨0, _⟩ => exact lhsA_0 _ _
      | ⟨1, _⟩ => exact (dot_S8000x128_S128x128_S8000x128_1_0_0_1_n_n.lhsIdx_val_of_single rfl _ _).trans hk)
  have er : dot_S8000x128_S128x128_S8000x128_1_0_0_1_n_n.rhsIdx (ix2 p q)
      ((ValueIdx.contrEquiv1 dot_S8000x128_S128x128_S8000x128_1_0_0_1_n_n 128 rfl rfl).symm k) = ix2 k q :=
    funext fun a => Fin.ext (by
      match a with
      | ⟨0, _⟩ => exact (dot_S8000x128_S128x128_S8000x128_1_0_0_1_n_n.rhsIdx_val_of_single rfl _ _).trans hk
      | ⟨1, _⟩ => exact rhsA_1 _ _)
  rw [el, er]

/-- The first region's stored value at row `p` and column `q` of its block: the first layer's entry of the block's row `p`,
    the weights' column `q` and the bias entry `q`. -/
theorem pay0_at (xb : Vec Ideal S8000x128 .f32) (wb : Vec Ideal S128x128 .f32) (bb : Vec Ideal S1x128 .f32) (p : Fin 8000) (q : Fin 128) :
    k0_pay1 (F := Ideal) xb wb bb (ix2 p q)
      = Cert.Spec.dense1At (fun k => xb (ix2 p k)) (fun k => wb (ix2 k q)) (bb (ix2 (0 : Fin 1) q)) := by
  -- the casts to the narrow format and back are the identity; the sum, the bias and the cut-off are read at the entry
  show max ((matmul (F := Ideal) dot_S8000x128_S128x128_S8000x128_1_0_0_1_n_n none (truncf (F := Ideal) .bf16 xb bitsLt_bf16_f32)
        (truncf (F := Ideal) .bf16 wb bitsLt_bf16_f32) (constant S8000x128 .f32 0x00000000#32) (ix2 p q) : EReal)
      + (broadcastTo S8000x128 (shapeCast S1x128 bb shapeCasts_S1x128_S1x128) broadcasts_S1x128_S8000x128 (ix2 p q) : EReal))
      (Ideal.ofBits .f32 0x00000000#32 : EReal)
    = max ((∑ k : Fin 128, (xb (ix2 p k) : EReal) * (wb (ix2 k q) : EReal)) + (bb (ix2 (0 : Fin 1) q) : EReal)) (0 : EReal)
  refine congrArg₂ max (congrArg₂ (· + ·) (matmulA_at _ _ p q) ?_) Ideal.ofBits_zero_f32
  rw [shapeCast_self]
  exact broadcastTo_1b_ab_apply bb broadcasts_S1x128_S8000x128 p q

/-- The left operand's index of the second product, on the row axis: the output's row. -/
theorem lhsB_0 (i : S8000x16.Idx) (c : dot_S8000x128_S128x16_S8000x16_1_0_0_1_n_n.contr.Idx) :
    (dot_S8000x128_S128x16_S8000x16_1_0_0_1_n_n.lhsIdx i c 0).val = (i 0).val := by
  unfold DotDims.lhsIdx
  rw [dif_neg (show ¬(0 : Fin S8000x128.rank) ∈ dot_S8000x128_S128x16_S8000x16_1_0_0_1_n_n.lhsBatch by decide),
    dif_pos (show (0 : Fin S8000x128.rank) ∈ dot_S8000x128_S128x16_S8000x16_1_0_0_1_n_n.lhsNonContracting by decide)]
  rfl

/-- The right operand's index of the second product, on the column axis: the output's column. -/
theorem rhsB_1 (i : S8000x16.Idx) (c : dot_S8000x128_S128x16_S8000x16_1_0_0_1_n_n.contr.Idx) :
    (dot_S8000x128_S128x16_S8000x16_1_0_0_1_n_n.rhsIdx i c 1).val = (i 1).val := by
  unfold DotDims.rhsIdx
  rw [dif_neg (show ¬(1 : Fin S128x16.rank) ∈ dot_S8000x128_S128x16_S8000x16_1_0_0_1_n_n.rhsBatch by decide),
    dif_pos (show (1 : Fin S128x16.rank) ∈ dot_S8000x128_S128x16_S8000x16_1_0_0_1_n_n.rhsNonContracting by decide)]
  rfl

/-- The second block product into zeros, at row `p` and column `q`: the sum over the contracted position `k` of the left
    operand at `(p, k)` times the right operand at `(k, q)`. -/
theorem matmulB_at (l : FVec Ideal S8000x128 .bf16) (r : FVec Ideal S128x16 .bf16) (p : Fin 8000) (q : Fin 16) :
    matmul dot_S8000x128_S128x16_S8000x16_1_0_0_1_n_n none l r (constant S8000x16 .f32 0x00000000#32) (ix2 p q)
      = ∑ k : Fin 128, l (ix2 p k) * r (ix2 k q) := by
  refine (Ideal.matmul_constant_zero_apply dot_S8000x128_S128x16_S8000x16_1_0_0_1_n_n none l r (ix2 p q)).trans ?_
  rw [← Equiv.sum_comp (ValueIdx.contrEquiv1 dot_S8000x128_S128x16_S8000x16_1_0_0_1_n_n 128 rfl rfl).symm]
  refine Finset.sum_congr rfl fun k _ => ?_
  have hk := ValueIdx.contrEquiv1_symm_val dot_S8000x128_S128x16_S8000x16_1_0_0_1_n_n 128 rfl rfl k
  have el : dot_S8000x128_S128x16_S8000x16_1_0_0_1_n_n.lhsIdx (ix2 p q)
      ((ValueIdx.contrEquiv1 dot_S8000x128_S128x16_S8000x16_1_0_0_1_n_n 128 rfl rfl).symm k) = ix2 p k :=
    funext fun a => Fin.ext (by
      match a with
      | ⟨0, _⟩ => exact lhsB_0 _ _
      | ⟨1, _⟩ => exact (dot_S8000x128_S128x16_S8000x16_1_0_0_1_n_n.lhsIdx_val_of_single rfl _ _).trans hk)
  have er : dot_S8000x128_S128x16_S8000x16_1_0_0_1_n_n.rhsIdx (ix2 p q)
      ((ValueIdx.contrEquiv1 dot_S8000x128_S128x16_S8000x16_1_0_0_1_n_n 128 rfl rfl).symm k) = ix2 k q :=
    funext fun a => Fin.ext (by
      match a with
      | ⟨0, _⟩ => exact (dot_S8000x128_S128x16_S8000x16_1_0_0_1_n_n.rhsIdx_val_of_single rfl _ _).trans hk
      | ⟨1, _⟩ => exact rhsB_1 _ _)
  rw [el, er]

/-- The second region's stored value at row `p` and column `q` of its block: the second layer's entry of the block's row
    `p`, the weights' column `q` and the bias entry `q`. -/
theorem pay1_at (ab : Vec Ideal S8000x128 .f32) (wb : Vec Ideal S128x16 .f32) (bb : Vec Ideal S1x16 .f32) (p : Fin 8000) (q : Fin 16) :
    k1_pay1 (F := Ideal) ab wb bb (ix2 p q)
      = Cert.Spec.dense2At (fun k => ab (ix2 p k)) (fun k => wb (ix2 k q)) (bb (ix2 (0 : Fin 1) q)) := by
  -- the casts between formats are the identity; the sum and the bias are read at the entry
  show (matmul (F := Ideal) dot_S8000x128_S128x16_S8000x16_1_0_0_1_n_n none
        (truncf (F := Ideal) .bf16 (maximumf (shapeCast S8000x128 ab shapeCasts_S8000x128_S8000x128)
          (broadcast S8000x128 (Scalar.ofBits (F := Ideal) .f32 0x00000000#32))) bitsLt_bf16_f32)
        (truncf (F := Ideal) .bf16 wb bitsLt_bf16_f32) (constant S8000x16 .f32 0x00000000#32) (ix2 p q) : EReal)
      + (broadcastTo S8000x16 (shapeCast S1x16 bb shapeCasts_S1x16_S1x16) broadcasts_S1x16_S8000x16 (ix2 p q) : EReal)
    = (∑ k : Fin 128, max (ab (ix2 p k) : EReal) 0 * (wb (ix2 k q) : EReal)) + (bb (ix2 (0 : Fin 1) q) : EReal)
  refine congrArg₂ (· + ·) ((matmulB_at _ _ p q).trans (Finset.sum_congr rfl fun k _ => ?_)) ?_
  · -- the cut-off operand at an entry: the maximum of the entry and zero
    show max (shapeCast S8000x128 ab shapeCasts_S8000x128_S8000x128 (ix2 p k) : EReal) (Ideal.ofBits .f32 0x00000000#32)
        * (wb (ix2 k q) : EReal) = _
    rw [shapeCast_self, Ideal.ofBits_zero_f32]
  · rw [shapeCast_self]
    exact broadcastTo_1b_ab_apply bb broadcasts_S1x16_S8000x16 p q

end Kernel

/-! ## The reference's two layers -/

section Reference

open Cert.ReferenceIdeal Cert.ReferenceIdeal.Gen

/-- The reference's first layer at row `P` and column `q`: the first layer's entry of the features' row `P`, the weights'
    column `q` and the bias entry `q`. -/
theorem layer1_at (x0 : (⟨S1000000x128, .f32⟩ : BufTy).Contents (Elt Ideal)) (x2 : (⟨S128x128, .f32⟩ : BufTy).Contents (Elt Ideal))
    (x3 : (⟨S128, .f32⟩ : BufTy).Contents (Elt Ideal)) (P : Fin 1000000) (q : Fin 128) :
    ReadP.val_main_v4 (F := Ideal) x0 x2 x3 (ix2 P q)
      = Cert.Spec.dense1At (fun k => x0 (ix2 P k)) (fun k => x2 (ix2 k q)) (x3 (ix1 q)) := by
  rw [ReadP.val_main_v4_apply, ReadP.val_main_v3_apply, ReadP.val_main_v0_apply, ReadP.val_main_v2_apply, ReadP.val_main_v1_apply,
    ReadP.val_main_call0_v0_apply, ReadP.val_main_call0_cst_apply]
  -- the operands' indices of the product, and the bias's index through its two broadcasts
  have hl : ∀ k : Fin 128, ReadP.lidx_main_v0 (ix2 P q) k = ix2 P k := fun k =>
    funext fun a => by match a with | ⟨0, _⟩ => rfl | ⟨1, _⟩ => rfl
  have hr : ∀ k : Fin 128, ReadP.ridx_main_v0 (ix2 P q) k = ix2 k q := fun k =>
    funext fun a => by match a with | ⟨0, _⟩ => rfl | ⟨1, _⟩ => rfl
  have hb : ReadP.idx_main_v1 (ReadP.idx_main_v2 (ix2 P q)) = ix1 q :=
    funext fun a => by match a with | ⟨0, _⟩ => rfl
  rw [hb]
  simp only [hl, hr]
  show max (_ + _) (Ideal.ofBits .f32 0x00000000#32) = _
  rw [Ideal.ofBits_zero_f32]
  rfl

/-- The reference's second product at row `P` and column `q`, for any left operand: the sum over the contracted position `k`
    of the left operand at `(P, k)` times the weights at `(k, q)`. -/
theorem dot2_at (y : (⟨S1000000x128, .f32⟩ : BufTy).Contents (Elt Ideal)) (x4 : (⟨S128x16, .f32⟩ : BufTy).Contents (Elt Ideal))
    (P : Fin 1000000) (q : Fin 16) :
    Host.dotGeneral (F := Ideal) (φ₁ := .f32) (φ₂ := .f32) dot_S1000000x128_S128x16_S1000000x16_1_0_0_1_n_n none y x4 (ix2 P q)
      = ∑ k : Fin 128, (y (ix2 P k) : EReal) * (x4 (ix2 k q) : EReal) := by
  simp only [Host.dotGeneral]
  rw [Ideal.dotGeneral_apply, ← Equiv.sum_comp (ValueIdx.contrEquiv1 dot_S1000000x128_S128x16_S1000000x16_1_0_0_1_n_n 128 rfl rfl).symm]
  refine Finset.sum_congr rfl fun k _ => ?_
  have hk := ValueIdx.contrEquiv1_symm_val dot_S1000000x128_S128x16_S1000000x16_1_0_0_1_n_n 128 rfl rfl k
  have el : dot_S1000000x128_S128x16_S1000000x16_1_0_0_1_n_n.lhsIdx (ix2 P q)
      ((ValueIdx.contrEquiv1 dot_S1000000x128_S128x16_S1000000x16_1_0_0_1_n_n 128 rfl rfl).symm k) = ix2 P k :=
    funext fun a => Fin.ext (by
      match a with
      | ⟨0, _⟩ => exact ReadP.lhs_main_v43_0 _ _
      | ⟨1, _⟩ => exact (ReadP.lhs_main_v43_1 _ _).trans hk)
  have er : dot_S1000000x128_S128x16_S1000000x16_1_0_0_1_n_n.rhsIdx (ix2 P q)
      ((ValueIdx.contrEquiv1 dot_S1000000x128_S128x16_S1000000x16_1_0_0_1_n_n 128 rfl rfl).symm k) = ix2 k q :=
    funext fun a => Fin.ext (by
      match a with
      | ⟨0, _⟩ => exact (ReadP.rhs_main_v43_0 _ _).trans hk
      | ⟨1, _⟩ => exact ReadP.rhs_main_v43_1 _ _)
  rw [el, er]

/-- The reference's second layer at row `P` and column `q`: the second layer's entry of the aggregated features' row `P`, the
    weights' column `q` and the bias entry `q`. -/
theorem layer2_at (A : (⟨S1000000x128, .f32⟩ : BufTy).Contents (Elt Ideal)) (x4 : (⟨S128x16, .f32⟩ : BufTy).Contents (Elt Ideal))
    (x5 : (⟨S16, .f32⟩ : BufTy).Contents (Elt Ideal)) (P : Fin 1000000) (q : Fin 16) :
    Cert.Net.layer2 (F := Ideal) A x4 x5 (ix2 P q)
      = Cert.Spec.dense2At (fun k => A (ix2 P k)) (fun k => x4 (ix2 k q)) (x5 (ix1 q)) := by
  unfold Cert.Net.layer2
  show (Host.dotGeneral (F := Ideal) (φ₁ := .f32) (φ₂ := .f32) dot_S1000000x128_S128x16_S1000000x16_1_0_0_1_n_n none
        (maximumf A (ReadP.val_main_call2_v0 (F := Ideal))) x4 (ix2 P q) : EReal)
      + (ReadP.val_main_v45 (F := Ideal) x5 (ix2 P q) : EReal) = _
  rw [dot2_at, ReadP.val_main_v45_apply, ReadP.val_main_v44_apply]
  have hb : ReadP.idx_main_v44 (ReadP.idx_main_v45 (ix2 P q)) = ix1 q :=
    funext fun a => by match a with | ⟨0, _⟩ => rfl
  rw [hb]
  refine congrArg (· + (x5 (ix1 q) : EReal)) (Finset.sum_congr rfl fun k _ => ?_)
  -- the cut-off operand at an entry: the maximum with the zero array's entry, which is zero
  show max (A (ix2 P k) : EReal) (ReadP.val_main_call2_v0 (F := Ideal) (ix2 P k)) * _ = _
  rw [ReadP.val_main_call2_v0_apply, ReadP.val_main_call2_cst_apply]
  show max (A (ix2 P k) : EReal) (Ideal.ofBits .f32 0x00000000#32) * _ = _
  rw [Ideal.ofBits_zero_f32]

end Reference

end Cert.Entries

end
-- ==== Proof.RefFold.lean ====
/-
  The reference's run read back as a function of its arguments. The reference is 64 host operations run in order as a fold
  over the buffer contents. The list is cut into five consecutive stretches, each read back alone and stated against the
  stages (the functions of the arguments that give each buffer's contents), and the stretches are chained: what one stretch
  leaves in the buffers the next one reads is exactly what the next one's statement assumes, and a buffer a stretch does not
  write passes through it unchanged.
-/
import proofs.«175724_j9234179686641_2_alg».proof.Proof.RefReadP
import proofs.«175724_j9234179686641_2_alg».proof.Proof.LibAfter

noncomputable section

namespace Cert.RefFold

open Cert.ReferenceIdeal Cert.ReferenceIdeal.Gen Idealize.ShloMosaic Idealize.ShloMosaic.TcCoe Idealize.SL.Sem Idealize.ShloMosaic.StableHlo

variable {F : FTy → Type} [FloatOps F]

/-! The reference's 64 host operations, cut into five consecutive stretches. A stretch is short enough that its fold can be
read back, buffer by buffer, as the composition of its operations' functions; each stretch's result is then stated against
the stages of the reference (the functions of the arguments that give each buffer's contents), under hypotheses saying that
the buffers the stretch reads from earlier stretches already hold their stages. -/

/-- Operations 0-6: the first dense layer (matrix product, bias, cut-off below at zero). -/
abbrev s1 : List (HloOp τ sig (Elt F)) := (ValueP.ops (F := F)).take 7
/-- Operations 7-20: the first column of the edge list, wrapped into range, and the scatter of positions by it. -/
abbrev s2 : List (HloOp τ sig (Elt F)) := ((ValueP.ops (F := F)).drop 7).take 14
/-- Operations 21-23: the sort of that scatter's result with the positions carried along. -/
abbrev s3 : List (HloOp τ sig (Elt F)) := ((ValueP.ops (F := F)).drop 21).take 3
/-- Operations 24-52: the index glue after the sort (one scatter, two gathers), down to the slot of every edge. -/
abbrev s4 : List (HloOp τ sig (Elt F)) := ((ValueP.ops (F := F)).drop 24).take 29
/-- Operations 53-63: the scatter-add of the hidden rows by slot, and the second dense layer. -/
abbrev s5 : List (HloOp τ sig (Elt F)) := (ValueP.ops (F := F)).drop 53

/-- The five stretches, in order, are the whole list. -/
theorem ops_split : (ValueP.ops (F := F)) = s1 ++ (s2 ++ (s3 ++ (s4 ++ s5))) := rfl

/-- A stretch written out as the literal list of its operations. -/
local macro "stretch" : tactic =>
  `(tactic| simp only [s1, s2, s3, s4, s5, ValueP.ops, List.drop_succ_cons, List.drop_zero, List.take_succ_cons, List.take_zero])

/-- Every operation of a literal list writes only its own result buffer, which the given list of references holds. -/
local macro "writes_in" : tactic =>
  `(tactic| (simp only [List.Forall]
             and_intros <;>
               (simp only [nullary_writes, unary_writes, binary_writes, ternary_writes, reshape_writes,
                  Finset.singleton_subset_iff, List.mem_toFinset]
                exact List.mem_map_of_mem (by decide))))

/-! ## What each stretch writes, and so what it keeps -/

abbrev s1_W : List (Ref sig .tc) := [main_v0, main_v1, main_v2, main_v3, main_call0_cst, main_call0_v0, main_v4]
abbrev s2_W : List (Ref sig .tc) :=
  [main_v5, main_v6, main_v7, main_c, main_v8, main_c_0, main_v9, main_v10, main_c_1, main_v11, main_v12, main_v13, main_v14, main_v15]
abbrev s3_W : List (Ref sig .tc) := [main_call1_v0, main_call1_v1_0, main_v16]
abbrev s4_W : List (Ref sig .tc) :=
  [main_c_2, main_v17, main_c_3, main_v18, main_v19, main_c_4, main_v20, main_v21, main_v22, main_v23, main_v24, main_c_5, main_v25,
   main_v26, main_c_6, main_v27, main_v28, main_v29, main_v30, main_v31, main_c_7, main_v32, main_v33, main_c_8, main_v34, main_v35,
   main_v36, main_v37, main_v38]
abbrev s5_W : List (Ref sig .tc) :=
  [main_cst, main_v39, main_v40, main_v41, main_call2_cst, main_call2_v0, main_v42, main_v43, main_v44, main_v45, main_v46]

theorem s1_writes : (s1 (F := F)).Forall fun op => op.writes ⊆ (s1_W.map (Proc.devRef (τ := τ) .tc)).toFinset := by
  stretch; writes_in
theorem s2_writes : (s2 (F := F)).Forall fun op => op.writes ⊆ (s2_W.map (Proc.devRef (τ := τ) .tc)).toFinset := by
  stretch; writes_in
theorem s3_writes : (s3 (F := F)).Forall fun op => op.writes ⊆ (s3_W.map (Proc.devRef (τ := τ) .tc)).toFinset := by
  stretch; writes_in
theorem s4_writes : (s4 (F := F)).Forall fun op => op.writes ⊆ (s4_W.map (Proc.devRef (τ := τ) .tc)).toFinset := by
  stretch; writes_in
theorem s5_writes : (s5 (F := F)).Forall fun op => op.writes ⊆ (s5_W.map (Proc.devRef (τ := τ) .tc)).toFinset := by
  stretch; writes_in

/-- A buffer a stretch does not write keeps its contents through it. -/
theorem keep1 (W : Valuation τ sig (Elt F)) (r : Ref sig .tc) (h : r ∉ s1_W) :
    after (s1 (F := F)) W (Proc.devRef .tc r) = W (Proc.devRef .tc r) := after_of_writes_sub s1 W s1_writes h
theorem keep2 (W : Valuation τ sig (Elt F)) (r : Ref sig .tc) (h : r ∉ s2_W) :
    after (s2 (F := F)) W (Proc.devRef .tc r) = W (Proc.devRef .tc r) := after_of_writes_sub s2 W s2_writes h
theorem keep3 (W : Valuation τ sig (Elt F)) (r : Ref sig .tc) (h : r ∉ s3_W) :
    after (s3 (F := F)) W (Proc.devRef .tc r) = W (Proc.devRef .tc r) := after_of_writes_sub s3 W s3_writes h
theorem keep4 (W : Valuation τ sig (Elt F)) (r : Ref sig .tc) (h : r ∉ s4_W) :
    after (s4 (F := F)) W (Proc.devRef .tc r) = W (Proc.devRef .tc r) := after_of_writes_sub s4 W s4_writes h
theorem keep5 (W : Valuation τ sig (Elt F)) (r : Ref sig .tc) (h : r ∉ s5_W) :
    after (s5 (F := F)) W (Proc.devRef .tc r) = W (Proc.devRef .tc r) := after_of_writes_sub s5 W s5_writes h

/-! ## What each stretch computes -/

/-- The first stretch leaves the first layer's output: the stage of buffer 4 at the three arguments it reads. -/
theorem s1_v4 (W : Valuation τ sig (Elt F)) :
    after (s1 (F := F)) W (Proc.devRef .tc main_v4)
      = ReadP.val_main_v4 (F := F) (W (Proc.devRef .tc main_arg0)) (W (Proc.devRef .tc main_arg2)) (W (Proc.devRef .tc main_arg3)) := by
  stretch
  after_results_simp
  simp only [Cert.Lib.ofBuf_toBuf]
  rfl

/-- The second stretch reads the edge list only; three of its buffers are read again later. -/
theorem s2_v15 (W : Valuation τ sig (Elt F)) :
    after (s2 (F := F)) W (Proc.devRef .tc main_v15) = ReadP.val_main_v15 (F := F) (W (Proc.devRef .tc main_arg1)) := by
  stretch
  after_results_simp
  rfl
theorem s2_v6 (W : Valuation τ sig (Elt F)) :
    after (s2 (F := F)) W (Proc.devRef .tc main_v6) = ReadP.val_main_v6 (F := F) (W (Proc.devRef .tc main_arg1)) := by
  stretch
  after_results_simp
  rfl
theorem s2_v7 (W : Valuation τ sig (Elt F)) :
    after (s2 (F := F)) W (Proc.devRef .tc main_v7) = ReadP.val_main_v7 (F := F) := by
  stretch
  after_results_simp
  rfl

/-- The sort: from the scatter's result at its stage, the carried positions are at theirs. -/
theorem s3_v16 (W : Valuation τ sig (Elt F)) (x1 : (⟨S1000000x2, .i32⟩ : BufTy).Contents (Elt F))
    (h15 : W (Proc.devRef .tc main_v15) = ReadP.val_main_v15 (F := F) x1) :
    after (s3 (F := F)) W (Proc.devRef .tc main_v16) = ReadP.val_main_v16 (F := F) x1 := by
  stretch
  after_results_simp
  simp only [Cert.Lib.ofBuf_toBuf, TRef.ofBuf, TRef.toBuf, cast_eq]
  rw [h15]
  simp only [ReadP.val_main_v16, ReadP.val_main_call1_v0]

/-- The glue after the sort: from the sorted positions, the wrapped column and the positions at their stages, the slot
    of every edge is at its stage. -/
theorem s4_v38 (W : Valuation τ sig (Elt F)) (x1 : (⟨S1000000x2, .i32⟩ : BufTy).Contents (Elt F))
    (h16 : W (Proc.devRef .tc main_v16) = ReadP.val_main_v16 (F := F) x1)
    (h6 : W (Proc.devRef .tc main_v6) = ReadP.val_main_v6 (F := F) x1)
    (h7 : W (Proc.devRef .tc main_v7) = ReadP.val_main_v7 (F := F)) :
    after (s4 (F := F)) W (Proc.devRef .tc main_v38) = ReadP.val_main_v38 (F := F) x1 := by
  stretch
  after_results_simp
  rw [h16, h6, h7]
  rfl

/-- The last stretch: from the slots and the first layer's output at their stages, the result is at its stage. -/
theorem s5_v46 (W : Valuation τ sig (Elt F)) (x0 : (⟨S1000000x128, .f32⟩ : BufTy).Contents (Elt F))
    (x1 : (⟨S1000000x2, .i32⟩ : BufTy).Contents (Elt F)) (x2 : (⟨S128x128, .f32⟩ : BufTy).Contents (Elt F))
    (x3 : (⟨S128, .f32⟩ : BufTy).Contents (Elt F))
    (h38 : W (Proc.devRef .tc main_v38) = ReadP.val_main_v38 (F := F) x1)
    (h4 : W (Proc.devRef .tc main_v4) = ReadP.val_main_v4 (F := F) x0 x2 x3) :
    after (s5 (F := F)) W (Proc.devRef .tc main_v46)
      = ReadP.val_main_v46 (F := F) x0 x1 x2 x3 (W (Proc.devRef .tc main_arg4)) (W (Proc.devRef .tc main_arg5)) := by
  stretch
  after_results_simp
  simp only [Cert.Lib.ofBuf_toBuf]
  rw [h38, h4]
  rfl

/-! ## The stretches run one after the other -/

/-- The buffer contents after the first stretch, the first two, three, four. -/
abbrev W1 (W : Valuation τ sig (Elt F)) : Valuation τ sig (Elt F) := after s1 W
abbrev W2 (W : Valuation τ sig (Elt F)) : Valuation τ sig (Elt F) := after s2 (W1 W)
abbrev W3 (W : Valuation τ sig (Elt F)) : Valuation τ sig (Elt F) := after s3 (W2 W)
abbrev W4 (W : Valuation τ sig (Elt F)) : Valuation τ sig (Elt F) := after s4 (W3 W)

/-- The whole list's fold is the last stretch's over the first four's. -/
theorem after_ops (W : Valuation τ sig (Elt F)) : after (ValueP.ops (F := F)) W = after s5 (W4 W) := by
  rw [ops_split, Cert.Lib.after_append, Cert.Lib.after_append, Cert.Lib.after_append, Cert.Lib.after_append]

/-- A buffer none of the first four stretches writes still holds its first contents after them. -/
theorem W4_keep (W : Valuation τ sig (Elt F)) (r : Ref sig .tc) (h1 : r ∉ s1_W) (h2 : r ∉ s2_W) (h3 : r ∉ s3_W) (h4 : r ∉ s4_W) :
    W4 W (Proc.devRef .tc r) = W (Proc.devRef .tc r) :=
  (keep4 (W3 W) r h4).trans ((keep3 (W2 W) r h3).trans ((keep2 (W1 W) r h2).trans (keep1 W r h1)))

theorem W2_v15 (W : Valuation τ sig (Elt F)) :
    W2 W (Proc.devRef .tc main_v15) = ReadP.val_main_v15 (F := F) (W (Proc.devRef .tc main_arg1)) :=
  (s2_v15 (W1 W)).trans (congrArg _ (keep1 W main_arg1 (by decide)))
theorem W2_v6 (W : Valuation τ sig (Elt F)) :
    W2 W (Proc.devRef .tc main_v6) = ReadP.val_main_v6 (F := F) (W (Proc.devRef .tc main_arg1)) :=
  (s2_v6 (W1 W)).trans (congrArg _ (keep1 W main_arg1 (by decide)))
theorem W2_v7 (W : Valuation τ sig (Elt F)) : W2 W (Proc.devRef .tc main_v7) = ReadP.val_main_v7 (F := F) := s2_v7 (W1 W)

theorem W3_v16 (W : Valuation τ sig (Elt F)) :
    W3 W (Proc.devRef .tc main_v16) = ReadP.val_main_v16 (F := F) (W (Proc.devRef .tc main_arg1)) :=
  s3_v16 (W2 W) _ (W2_v15 W)
theorem W3_v6 (W : Valuation τ sig (Elt F)) :
    W3 W (Proc.devRef .tc main_v6) = ReadP.val_main_v6 (F := F) (W (Proc.devRef .tc main_arg1)) :=
  (keep3 (W2 W) main_v6 (by decide)).trans (W2_v6 W)
theorem W3_v7 (W : Valuation τ sig (Elt F)) : W3 W (Proc.devRef .tc main_v7) = ReadP.val_main_v7 (F := F) :=
  (keep3 (W2 W) main_v7 (by decide)).trans (W2_v7 W)

theorem W4_v38 (W : Valuation τ sig (Elt F)) :
    W4 W (Proc.devRef .tc main_v38) = ReadP.val_main_v38 (F := F) (W (Proc.devRef .tc main_arg1)) :=
  s4_v38 (W3 W) _ (W3_v16 W) (W3_v6 W) (W3_v7 W)
theorem W4_v4 (W : Valuation τ sig (Elt F)) :
    W4 W (Proc.devRef .tc main_v4)
      = ReadP.val_main_v4 (F := F) (W (Proc.devRef .tc main_arg0)) (W (Proc.devRef .tc main_arg2)) (W (Proc.devRef .tc main_arg3)) :=
  (keep4 (W3 W) main_v4 (by decide)).trans ((keep3 (W2 W) main_v4 (by decide)).trans ((keep2 (W1 W) main_v4 (by decide)).trans (s1_v4 W)))

/-- The reference's result buffer, after all 64 operations from any contents, is the last stage of the reference at the six
    arguments' contents. -/
theorem result (W : Valuation τ sig (Elt F)) :
    after (ValueP.ops (F := F)) W (Proc.devRef .tc main_v46)
      = ReadP.val_main_v46 (F := F) (W (Proc.devRef .tc main_arg0)) (W (Proc.devRef .tc main_arg1)) (W (Proc.devRef .tc main_arg2))
          (W (Proc.devRef .tc main_arg3)) (W (Proc.devRef .tc main_arg4)) (W (Proc.devRef .tc main_arg5)) := by
  rw [after_ops, s5_v46 (W4 W) _ _ _ _ (W4_v38 W) (W4_v4 W),
    W4_keep W main_arg4 (by decide) (by decide) (by decide) (by decide),
    W4_keep W main_arg5 (by decide) (by decide) (by decide) (by decide)]

/-- No operation writes an argument: each argument's buffer holds after the run what it held before. -/
theorem kept (W : Valuation τ sig (Elt F)) (r : Ref sig .tc) (h1 : r ∉ s1_W) (h2 : r ∉ s2_W) (h3 : r ∉ s3_W) (h4 : r ∉ s4_W)
    (h5 : r ∉ s5_W) : after (ValueP.ops (F := F)) W (Proc.devRef .tc r) = W (Proc.devRef .tc r) :=
  (congrFun (after_ops W) _).trans ((keep5 (W4 W) r h5).trans (W4_keep W r h1 h2 h3 h4))

theorem kept_arg0 (W : Valuation τ sig (Elt F)) :
    after (ValueP.ops (F := F)) W (Proc.devRef .tc main_arg0) = W (Proc.devRef .tc main_arg0) :=
  kept W main_arg0 (by decide) (by decide) (by decide) (by decide) (by decide)
theorem kept_arg1 (W : Valuation τ sig (Elt F)) :
    after (ValueP.ops (F := F)) W (Proc.devRef .tc main_arg1) = W (Proc.devRef .tc main_arg1) :=
  kept W main_arg1 (by decide) (by decide) (by decide) (by decide) (by decide)
theorem kept_arg2 (W : Valuation τ sig (Elt F)) :
    after (ValueP.ops (F := F)) W (Proc.devRef .tc main_arg2) = W (Proc.devRef .tc main_arg2) :=
  kept W main_arg2 (by decide) (by decide) (by decide) (by decide) (by decide)
theorem kept_arg3 (W : Valuation τ sig (Elt F)) :
    after (ValueP.ops (F := F)) W (Proc.devRef .tc main_arg3) = W (Proc.devRef .tc main_arg3) :=
  kept W main_arg3 (by decide) (by decide) (by decide) (by decide) (by decide)
theorem kept_arg4 (W : Valuation τ sig (Elt F)) :
    after (ValueP.ops (F := F)) W (Proc.devRef .tc main_arg4) = W (Proc.devRef .tc main_arg4) :=
  kept W main_arg4 (by decide) (by decide) (by decide) (by decide) (by decide)
theorem kept_arg5 (W : Valuation τ sig (Elt F)) :
    after (ValueP.ops (F := F)) W (Proc.devRef .tc main_arg5) = W (Proc.devRef .tc main_arg5) :=
  kept W main_arg5 (by decide) (by decide) (by decide) (by decide) (by decide)

end Cert.RefFold

end
-- ==== Proof.Chain.lean ====
/-
  The idealized kernel's result is the reference's result, as one function of the argument arrays.

  The run leaves the result buffer at the second region's output array. That array is the second dense layer of what the region
  finds: the aggregation, by the slots the host glue computes from the edge list, of the first region's output array, which is
  the first dense layer of the arguments. The reference's last stage is the same second layer of the same aggregation of the same
  first layer: entry by entry both layers are the sums `Cert.Spec.dense1At` / `Cert.Spec.dense2At` of ONE row, and the host glue
  between them is operation for operation the same. No law of the extended reals beyond the definitions is used, so the
  precondition is never opened.
-/
import proofs.«175724_j9234179686641_2_alg».proof.Proof.KernelRun
import proofs.«175724_j9234179686641_2_alg».proof.Proof.Region0
import proofs.«175724_j9234179686641_2_alg».proof.Proof.Region1
import proofs.«175724_j9234179686641_2_alg».proof.Proof.HostK
import proofs.«175724_j9234179686641_2_alg».proof.Proof.Entries
import proofs.«175724_j9234179686641_2_alg».proof.Proof.RefFold
import Idealize.ShloMosaic.Lib.ValueLayout

set_option maxRecDepth 16384

noncomputable section

namespace Cert.Chain

open Cert.KernelIdeal Cert.KernelIdeal.Gen
open Idealize.ShloMosaic Idealize.ShloMosaic.TcCoe Idealize.SL.Sem Idealize.ShloMosaic.ValueIdx Idealize.ShloMosaic.StableHlo

/-! ## The two layers, whole arrays against the reference's stages -/

/-- The first region's array, read as single precision, is the reference's first-layer stage: entry `(P, q)` of both is the
    layer's sum of row `P` of the features; the bias row is the bias vector with a unit axis in front. -/
theorem hidden_eq (X : S1000000x128.Idx → EReal) (Wt : S128x128.Idx → EReal) (b1 : S128.Idx → EReal) :
    extf (F := Ideal) .f32 (Region0.layer X Wt (shapeCast S1x128 b1 shapeCasts_S128_S1x128)) bitsLt_bf16_f32
      = Cert.ReferenceIdeal.ReadP.val_main_v4 (F := Ideal) X Wt b1 := by
  funext i
  obtain ⟨P, q, rfl⟩ : ∃ (P : Fin 1000000) (q : Fin 128), i = ix2 P q := ⟨i 0, i 1, eq_ix2 i⟩
  show Region0.layer X Wt (shapeCast S1x128 b1 shapeCasts_S128_S1x128) (ix2 P q) = _
  rw [Cert.Entries.layer1_at X Wt b1 P q]
  unfold Region0.layer
  rw [shapeCast_a_1a_apply b1 shapeCasts_S128_S1x128 (0 : Fin 1) ⟨((ix2 P q : S1000000x128.Idx) 1).val, ((ix2 P q : S1000000x128.Idx) 1).isLt⟩]

/-- The second region's array is the second layer of the aggregated features, as the reference spells it. -/
theorem out_eq (A : S1000000x128.Idx → EReal) (Wt : S128x16.Idx → EReal) (b2 : S16.Idx → EReal) :
    Region1.layer A Wt (shapeCast S1x16 b2 shapeCasts_S16_S1x16) = Cert.Net.layer2 (F := Ideal) A Wt b2 := by
  funext i
  obtain ⟨P, q, rfl⟩ : ∃ (P : Fin 1000000) (q : Fin 16), i = ix2 P q := ⟨i 0, i 1, eq_ix2 i⟩
  rw [Cert.Entries.layer2_at A Wt b2 P q]
  unfold Region1.layer
  rw [shapeCast_a_1a_apply b2 shapeCasts_S16_S1x16 (0 : Fin 1) ⟨((ix2 P q : S1000000x16.Idx) 1).val, ((ix2 P q : S1000000x16.Idx) 1).isLt⟩]

/-! ## The fold of the kernel's program, boundary by boundary -/

variable (m : (ℓ : Loc nD τ sig) → Buf (Elt Ideal) ℓ) (ρ : Dev nD → PrngReg)

/-- At the first region's entry the features and the first weights are the arguments, the bias row the bias with a unit axis. -/
theorem V1_arg0 (c : Dev nD) : V1 m ρ c main_arg0 = m ((c : Thread nD τ).loc main_arg0) :=
  Cert.HostK.kept0 (W0 m ρ c) main_arg0 (by decide)
theorem V1_arg2 (c : Dev nD) : V1 m ρ c main_arg2 = m ((c : Thread nD τ).loc main_arg2) :=
  Cert.HostK.kept0 (W0 m ρ c) main_arg2 (by decide)
theorem V1_v0 (c : Dev nD) : V1 m ρ c main_v0 = shapeCast S1x128 (m ((c : Thread nD τ).loc main_arg3)) shapeCasts_S128_S1x128 :=
  Cert.HostK.v0_eq (W0 m ρ c)

/-- After the first region: its output array is the first layer of the arguments; the edge list, the second weights and the
    second bias are still the arguments. -/
theorem W2_v1 (c : Dev nD) : W2 m ρ c (Proc.devRef .tc main_v1)
    = Region0.layer (m ((c : Thread nD τ).loc main_arg0)) (m ((c : Thread nD τ).loc main_arg2))
        (shapeCast S1x128 (m ((c : Thread nD τ).loc main_arg3)) shapeCasts_S128_S1x128) := by
  refine (W2_arr m ρ c 3).trans ?_
  rw [Region0.final (V1 m ρ) (fun xb wb bb p q => Cert.Entries.pay0_at xb wb bb p q) c]
  unfold Region0.G
  rw [V1_arg0 m ρ c, V1_arg2 m ρ c, V1_v0 m ρ c]
theorem W2_arg1 (c : Dev nD) : W2 m ρ c (Proc.devRef .tc main_arg1) = m ((c : Thread nD τ).loc main_arg1) :=
  (W2_of_ne m ρ c main_arg1 (by decide)).trans (Cert.HostK.kept0 (W0 m ρ c) main_arg1 (by decide))
theorem W2_arg4 (c : Dev nD) : W2 m ρ c (Proc.devRef .tc main_arg4) = m ((c : Thread nD τ).loc main_arg4) :=
  (W2_of_ne m ρ c main_arg4 (by decide)).trans (Cert.HostK.kept0 (W0 m ρ c) main_arg4 (by decide))
theorem W2_arg5 (c : Dev nD) : W2 m ρ c (Proc.devRef .tc main_arg5) = m ((c : Thread nD τ).loc main_arg5) :=
  (W2_of_ne m ρ c main_arg5 (by decide)).trans (Cert.HostK.kept0 (W0 m ρ c) main_arg5 (by decide))

/-- At the second region's entry: the aggregated features, the second weights, the second bias row. -/
theorem V5_v39 (c : Dev nD) : V5 m ρ c main_v39
    = Cert.Net.aggregate (F := Ideal)
        (Cert.ReferenceIdeal.ReadP.val_main_v4 (F := Ideal) (m ((c : Thread nD τ).loc main_arg0)) (m ((c : Thread nD τ).loc main_arg2)) (m ((c : Thread nD τ).loc main_arg3)))
        (Cert.ReferenceIdeal.ReadP.val_main_v38 (F := Ideal) (m ((c : Thread nD τ).loc main_arg1))) := by
  refine (Cert.HostK.agg_eq (W2 m ρ c)).trans ?_
  rw [W2_v1 m ρ c, W2_arg1 m ρ c, hidden_eq]
theorem V5_arg4 (c : Dev nD) : V5 m ρ c main_arg4 = m ((c : Thread nD τ).loc main_arg4) :=
  (Cert.HostK.mid_arg4 (W2 m ρ c)).trans (W2_arg4 m ρ c)
theorem V5_v40 (c : Dev nD) : V5 m ρ c main_v40 = shapeCast S1x16 (m ((c : Thread nD τ).loc main_arg5)) shapeCasts_S16_S1x16 := by
  refine (Cert.HostK.v40_eq (W2 m ρ c)).trans ?_
  rw [W2_arg5 m ρ c]

/-- THE RESULT: the buffer the run names is the reference's last stage of the argument arrays. -/
theorem result_eq (c : Dev nD) : W6 m ρ c (Proc.devRef .tc main_v41)
    = Cert.ReferenceIdeal.ReadP.val_main_v46 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (W6_arr m ρ c 3).trans ?_
  rw [Region1.final (V5 m ρ) (fun ab wb bb p q => Cert.Entries.pay1_at ab wb bb p q) c]
  unfold Region1.G
  rw [V5_v39 m ρ c, V5_arg4 m ρ c, V5_v40 m ρ c, out_eq, Cert.Net.result_eq_layers]

end Cert.Chain

end
-- ==== Proof.lean ====
/-
  The proof of `Cert.Claim` for a two-layer graph network: a dense layer with a cut-off below at zero on every node's features,
  the sum of the hidden rows of the edges that fall into each slot (the slots computed from the edge list by a scatter, a sort and
  two gathers), a cut-off and a second dense layer on the sums.

  The kernel's program computes the two dense layers in two pipelined regions, 8000 rows of the million at a grid point, and
  the aggregation between them on the host; the reference computes everything on the host with whole-array products. Over the
  extended reals the two agree because an entry of a dense layer depends on ONE row of its left operand: the blocks each region
  writes back are the restrictions of the whole-array layer (`Region0`, `Region1`, over the entry formulas of `Spec` read off
  both programs in `Entries`), and the host operations between and around the regions are the reference's own (`HostK`,
  `RefFold`, named once in `Net`). `Chain` follows the kernel's buffers from the launch to the result. The frames of the two
  kernel programs are the generated ones; the reference's is its run with the result dropped. Nothing was rewritten by the
  idealization, so it preserves the program trivially.
-/
import proofs.«175724_j9234179686641_2_alg».proof.Defs
import proofs.«175724_j9234179686641_2_alg».proof.Proof.Gen.Kernel
import proofs.«175724_j9234179686641_2_alg».proof.Proof.Gen.Kernel.Frame
import proofs.«175724_j9234179686641_2_alg».proof.Proof.Gen.KernelIdeal
import proofs.«175724_j9234179686641_2_alg».proof.Proof.Gen.KernelIdeal.Frame
import proofs.«175724_j9234179686641_2_alg».proof.Proof.Gen.ReferenceIdeal
import proofs.«175724_j9234179686641_2_alg».proof.Proof.Gen.Pre_finite_inputs
import proofs.«175724_j9234179686641_2_alg».proof.Proof.Chain
import Idealize.ShloMosaic.Adequacy
import Idealize.ShloMosaic.Init

noncomputable section

namespace Cert.Proof

open Idealize.ShloMosaic Idealize.ShloMosaic.TcCoe Idealize.SL.Sem

/-- The word-level kernel program runs and leaves its arguments: the generated frame. -/
theorem frame_k : Cert.frame_Kernel := fun m ρ _ => Cert.Kernel.Gen.frame m ρ

/-- The idealized kernel program runs and leaves its arguments: the generated frame. -/
theorem frame_ki : Cert.frame_KernelIdeal := fun m ρ _ => Cert.KernelIdeal.Gen.frame m ρ

/-- The reference runs and leaves its arguments: no operation of it writes an argument buffer. -/
theorem frame_ri : Cert.frame_ReferenceIdeal := fun m ρ _ =>
  (θ_run Cert.ReferenceIdeal.defs _ _).mono (fun _ h c =>
      ⟨(h c Cert.ReferenceIdeal.main_arg0).trans (Cert.RefFold.kept_arg0 _),
       (h c Cert.ReferenceIdeal.main_arg1).trans (Cert.RefFold.kept_arg1 _),
       (h c Cert.ReferenceIdeal.main_arg2).trans (Cert.RefFold.kept_arg2 _),
       (h c Cert.ReferenceIdeal.main_arg3).trans (Cert.RefFold.kept_arg3 _),
       (h c Cert.ReferenceIdeal.main_arg4).trans (Cert.RefFold.kept_arg4 _),
       (h c Cert.ReferenceIdeal.main_arg5).trans (Cert.RefFold.kept_arg5 _)⟩)
    (Cert.ReferenceIdeal.ValueP.run (F := Ideal) m ρ)

/-- The idealization rewrote no operation. -/
theorem preserves : Cert.preserves_Kernel_KernelIdeal := trivial

/-- From memories that agree on the arguments both programs end with the same result: the kernel's at the second layer of the
    aggregated first layer of ITS arguments (`Chain.result_eq`), the reference's at the same function of its own, equal ones. -/
theorem algebraic : Cert.algebraic_KernelIdeal_ReferenceIdeal := by
  intro m ρ m' ρ' _ hagree
  refine ⟨fun c => Cert.KernelIdeal.Gen.W6 m ρ c (Proc.devRef .tc Cert.KernelIdeal.main_v41),
    Cert.KernelIdeal.RunV.run (F := Ideal) m ρ, ?_⟩
  refine (θ_run Cert.ReferenceIdeal.defs _ _).mono (fun r h c => ?_) (Cert.ReferenceIdeal.ValueP.run (F := Ideal) m' ρ')
  obtain ⟨a0, a1, a2, a3, a4, a5⟩ := hagree c
  refine ⟨?_, (h c Cert.ReferenceIdeal.main_arg0).trans (Cert.RefFold.kept_arg0 _),
    (h c Cert.ReferenceIdeal.main_arg1).trans (Cert.RefFold.kept_arg1 _),
    (h c Cert.ReferenceIdeal.main_arg2).trans (Cert.RefFold.kept_arg2 _),
    (h c Cert.ReferenceIdeal.main_arg3).trans (Cert.RefFold.kept_arg3 _),
    (h c Cert.ReferenceIdeal.main_arg4).trans (Cert.RefFold.kept_arg4 _),
    (h c Cert.ReferenceIdeal.main_arg5).trans (Cert.RefFold.kept_arg5 _)⟩
  refine ((h c Cert.ReferenceIdeal.main_v46).trans (Cert.RefFold.result _)).trans ?_
  show _ = Cert.KernelIdeal.Gen.W6 m ρ c (Proc.devRef .tc Cert.KernelIdeal.main_v41)
  rw [Cert.Chain.result_eq m ρ c, ← a0, ← a1, ← a2, ← a3, ← a4, ← a5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
